-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3x64x64 : Shape := ⟨4, ![2, 3, 64, 64]⟩
abbrev S2x3x64 : Shape := ⟨3, ![2, 3, 64]⟩
abbrev S64x64 : Shape := ⟨2, ![64, 64]⟩
abbrev S64 : Shape := ⟨1, ![64]⟩
abbrev S1200000 : Shape := ⟨1, ![1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2x3x64x64 : S_.BroadcastsInDim S2x3x64x64 (![] : Fin 0 → Fin S2x3x64x64.rank)
  reducesTo_S2x3x64x64_S_d0_1_2_3 : S2x3x64x64.ReducesTo [0, 1, 2, 3] S_
  bcast_S_S2x3x64 : S_.BroadcastsInDim S2x3x64 (![] : Fin 0 → Fin S2x3x64.rank)
  reducesTo_S2x3x64_S_d0_1_2 : S2x3x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S2x3x64 .f32) (main_arg5 : FVec F S64x64 .f32) (main_arg6 : FVec F S64 .f32) (main_v13 : IVec S_ 1) (main_v16 : IVec S2x3x64x64 1) : IVec S_ 1 :=
  let main_c_5 : IVec S_ 1 := constantI S_ 1 1#1
  let main_v17 : IVec S_ 1 := (fun x v => Host.reduce IntOp.andi x v reducesTo_S2x3x64x64_S_d0_1_2_3 h_S_) main_v16 main_c_5
  let main_v18 : IVec S_ 1 := andi main_v13 main_v17
  let main_v19 : FVec F S2x3x64 .f32 := Host.absf main_arg4
  let main_cst_6 : FVec F S_ .f32 := constant S_ .f32 0x7F800000#32
  let main_v20 : FVec F S2x3x64 .f32 := broadcastInDim S2x3x64 ![] bcast_S_S2x3x64 main_cst_6
  let main_v21 : IVec S2x3x64 1 := cmpf .olt main_v19 main_v20
  let main_c_7 : IVec S_ 1 := constantI S_ 1 1#1
  let main_v22 : IVec S_ 1 := (fun x v => Host.reduce IntOp.andi x v reducesTo_S2x3x64_S_d0_1_2 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : FVec F S100000x64 .f32) (main_arg2 : FVec F S2x3x64x64 .f32) (main_arg3 : FVec F S2x3x64x64 .f32) (main_arg4 : FVec F S2x3x64 .f32) (main_arg5 : FVec F S64x64 .f32) (main_arg6 : FVec F S64 .f32) (main_arg7 : IVec S1200000 32) (main_arg8 : IVec S1200000 32) (main_arg9 : IVec S1200000 32) (main_arg10 : IVec S1200000 32) (main_arg11 : IVec S1200000 32) (main_arg12 : IVec S1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S2x3x64x64 .f32 := Host.absf main_arg2
  let main_cst_2 : FVec F S_ .f32 := constant S_ .f32 0x7F800000#32
  let main_v10 : FVec F S2x3x64x64 .f32 := broadcastInDim S2x3x64x64 ![] bcast_S_S2x3x64x64 main_cst_2
  let main_v11 : IVec S2x3x64x64 1 := cmpf .olt main_v9 main_v10
  let main_c_3 : IVec S_ 1 := constantI S_ 1 1#1
  let main_v12 : IVec S_ 1 := (fun x v => Host.reduce IntOp.andi x v reducesTo_S2x3x64x64_S_d0_1_2_3 h_S_) main_v11 main_c_3
  let main_v13 : IVec S_ 1 := andi main_v8 main_v12
  let main_v14 : FVec F S2x3x64x64 .f32 := Host.absf main_arg3
  let main_cst_4 : FVec F S_ .f32 := constant S_ .f32 0x7F800000#32
  let main_v15 : FVec F S2x3x64x64 .f32 := broadcastInDim S2x3x64x64 ![] bcast_S_S2x3x64x64 main_cst_4
  let main_v16 : IVec S2x3x64x64 1 := cmpf .olt main_v14 main_v15
  fn_part1 (F := F) main_arg4 main_arg5 main_arg6 main_v13 main_v16
-- ==== Kernel.lean ====
abbrev S100000x64 : Shape := ⟨2, ![100000, 64]⟩
abbrev S2x3x64x64 : Shape := ⟨4, ![2, 3, 64, 64]⟩
abbrev S2x3x64 : Shape := ⟨3, ![2, 3, 64]⟩
abbrev S64x64 : Shape := ⟨2, ![64, 64]⟩
abbrev S64 : Shape := ⟨1, ![64]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x3x64x64 : Shape := ⟨4, ![1, 3, 64, 64]⟩
abbrev S3x64x64 : Shape := ⟨3, ![3, 64, 64]⟩
abbrev S1x3x64 : Shape := ⟨3, ![1, 3, 64]⟩
abbrev S3x64 : Shape := ⟨2, ![3, 64]⟩
abbrev S5000x64 : Shape := ⟨2, ![5000, 64]⟩
abbrev S1x64x64 : Shape := ⟨3, ![1, 64, 64]⟩
abbrev S1x64 : Shape := ⟨2, ![1, 64]⟩
abbrev S200000x64 : Shape := ⟨2, ![200000, 64]⟩
abbrev S20000x64 : Shape := ⟨2, ![20000, 64]⟩

abbrev nBuf : Space → Nat
  | .hbm => 180
  | .vmem => 40
  | .smem => 0
  | _ => 0

abbrev hbmTy0_0 (i : Nat) : BufTy := match i % 128 with
  | 0 => ⟨S100000x64, .f32⟩
  | 1 => ⟨S100000x64, .f32⟩
  | 2 => ⟨S2x3x64x64, .f32⟩
  | 3 => ⟨S2x3x64x64, .f32⟩
  | 4 => ⟨S2x3x64, .f32⟩
  | 5 => ⟨S64x64, .f32⟩
  | 6 => ⟨S64, .f32⟩
  | 7 => ⟨S1200000, .i32⟩
  | 8 => ⟨S1200000, .i32⟩
  | 9 => ⟨S1200000, .i32⟩
  | 10 => ⟨S1200000, .i32⟩
  | 11 => ⟨S1200000, .i32⟩
  | 12 => ⟨S1200000, .i32⟩
  | 13 => ⟨S_, .i32⟩
  | 14 => ⟨S1200000, .i32⟩
  | 15 => ⟨S1200000, .i1⟩
  | 16 => ⟨S_, .i32⟩
  | 17 => ⟨S1200000, .i32⟩
  | 18 => ⟨S1200000, .i32⟩
  | 19 => ⟨S1200000, .i32⟩
  | 20 => ⟨S1200000x1, .i32⟩
  | 21 => ⟨S1200000x64, .f32⟩
  | 22 => ⟨S_, .f32⟩
  | 23 => ⟨S100000x64, .f32⟩
  | 24 => ⟨S1200000x1, .i32⟩
  | 25 => ⟨S100000x64, .f32⟩
  | 26 => ⟨S_, .f32⟩
  | 27 => ⟨S1200000x1, .f32⟩
  | 28 => ⟨S_, .f32⟩
  | 29 => ⟨S100000x1, .f32⟩
  | 30 => ⟨S1200000x1, .i32⟩
  | 31 => ⟨S100000x1, .f32⟩
  | 32 => ⟨S_, .f32⟩
  | 33 => ⟨S100000x1, .f32⟩
  | 34 => ⟨S100000x1, .f32⟩
  | 35 => ⟨S100000x64, .f32⟩
  | 36 => ⟨S100000x64, .f32⟩
  | 37 => ⟨S_, .i32⟩
  | 38 => ⟨S1200000, .i32⟩
  | 39 => ⟨S1200000, .i1⟩
  | 40 => ⟨S_, .i32⟩
  | 41 => ⟨S1200000, .i32⟩
  | 42 => ⟨S1200000, .i32⟩
  | 43 => ⟨S1200000, .i32⟩
  | 44 => ⟨S1200000x1, .i32⟩
  | 45 => ⟨S1200000x64, .f32⟩
  | 46 => ⟨S_, .f32⟩
  | 47 => ⟨S100000x64, .f32⟩
  | 48 => ⟨S1200000x1, .i32⟩
  | 49 => ⟨S100000x64, .f32⟩
  | 50 => ⟨S_, .f32⟩
  | 51 => ⟨S1200000x1, .f32⟩
  | 52 => ⟨S_, .f32⟩
  | 53 => ⟨S100000x1, .f32⟩
  | 54 => ⟨S1200000x1, .i32⟩
  | 55 => ⟨S100000x1, .f32⟩
  | 56 => ⟨S_, .f32⟩
  | 57 => ⟨S100000x1, .f32⟩
  | 58 => ⟨S100000x1, .f32⟩
  | 59 => ⟨S100000x64, .f32⟩
  | 60 => ⟨S100000x64, .f32⟩
  | 61 => ⟨S_, .i32⟩
  | 62 => ⟨S1200000, .i32⟩
  | 63 => ⟨S1200000, .i1⟩
  | 64 => ⟨S_, .i32⟩
  | 65 => ⟨S1200000, .i32⟩
  | 66 => ⟨S1200000, .i32⟩
  | 67 => ⟨S1200000, .i32⟩
  | 68 => ⟨S1200000x1, .i32⟩
  | 69 => ⟨S1200000x64, .f32⟩
  | 70 => ⟨S_, .f32⟩
  | 71 => ⟨S100000x64, .f32⟩
  | 72 => ⟨S1200000x1, .i32⟩
  | 73 => ⟨S100000x64, .f32⟩
  | 74 => ⟨S_, .f32⟩
  | 75 => ⟨S1200000x1, .f32⟩
  | 76 => ⟨S_, .f32⟩
  | 77 => ⟨S100000x1, .f32⟩
  | 78 => ⟨S1200000x1, .i32⟩
  | 79 => ⟨S100000x1, .f32⟩
  | 80 => ⟨S_, .f32⟩
  | 81 => ⟨S100000x1, .f32⟩
  | 82 => ⟨S100000x1, .f32⟩
  | 83 => ⟨S100000x64, .f32⟩
  | 84 => ⟨S100000x64, .f32⟩
  | 85 => ⟨S1x3x64x64, .f32⟩
  | 86 => ⟨S3x64x64, .f32⟩
  | 87 => ⟨S3x64x64, .bf16⟩
  | 88 => ⟨S1x3x64x64, .f32⟩
  | 89 => ⟨S3x64x64, .f32⟩
  | 90 => ⟨S3x64x64, .bf16⟩
  | 91 => ⟨S1x3x64, .f32⟩
  | 92 => ⟨S3x64, .f32⟩
  | 93 => ⟨S100000x64, .f32⟩
  | 94 => ⟨S100000x64, .f32⟩
  | 95 => ⟨S_, .i32⟩
  | 96 => ⟨S1200000, .i32⟩
  | 97 => ⟨S1200000, .i1⟩
  | 98 => ⟨S_, .i32⟩
  | 99 => ⟨S1200000, .i32⟩
  | 100 => ⟨S1200000, .i32⟩
  | 101 => ⟨S1200000, .i32⟩
  | 102 => ⟨S1200000x1, .i32⟩
  | 103 => ⟨S1200000x64, .f32⟩
  | 104 => ⟨S_, .f32⟩
  | 105 => ⟨S100000x64, .f32⟩
  | 106 => ⟨S1200000x1, .i32⟩
  | 107 => ⟨S100000x64, .f32⟩
  | 108 => ⟨S_, .f32⟩
  | 109 => ⟨S1200000x1, .f32⟩
  | 110 => ⟨S_, .f32⟩
  | 111 => ⟨S100000x1, .f32⟩
  | 112 => ⟨S1200000x1, .i32⟩
  | 113 => ⟨S100000x1, .f32⟩
  | 114 => ⟨S_, .f32⟩
  | 115 => ⟨S100000x1, .f32⟩
  | 116 => ⟨S100000x1, .f32⟩
  | 117 => ⟨S100000x64, .f32⟩
  | 118 => ⟨S100000x64, .f32⟩
  | 119 => ⟨S_, .i32⟩
  | 120 => ⟨S1200000, .i32⟩
  | 121 => ⟨S1200000, .i1⟩
  | 122 => ⟨S_, .i32⟩
  | 123 => ⟨S1200000, .i32⟩
  | 124 => ⟨S1200000, .i32⟩
  | 125 => ⟨S1200000, .i32⟩
  | 126 => ⟨S1200000x1, .i32⟩
  | 127 => ⟨S1200000x64, .f32⟩
  | _ => ⟨S100000x64, .f32⟩

abbrev hbmTy0_1 (i : Nat) : BufTy := match i % 128 with
  | 0 => ⟨S_, .f32⟩
  | 1 => ⟨S100000x64, .f32⟩
  | 2 => ⟨S1200000x1, .i32⟩
  | 3 => ⟨S100000x64, .f32⟩
  | 4 => ⟨S_, .f32⟩
  | 5 => ⟨S1200000x1, .f32⟩
  | 6 => ⟨S_, .f32⟩
  | 7 => ⟨S100000x1, .f32⟩
  | 8 => ⟨S1200000x1, .i32⟩
  | 9 => ⟨S100000x1, .f32⟩
  | 10 => ⟨S_, .f32⟩
  | 11 => ⟨S100000x1, .f32⟩
  | 12 => ⟨S100000x1, .f32⟩
  | 13 => ⟨S100000x64, .f32⟩
  | 14 => ⟨S100000x64, .f32⟩
  | 15 => ⟨S_, .i32⟩
  | 16 => ⟨S1200000, .i32⟩
  | 17 => ⟨S1200000, .i1⟩
  | 18 => ⟨S_, .i32⟩
  | 19 => ⟨S1200000, .i32⟩
  | 20 => ⟨S1200000, .i32⟩
  | 21 => ⟨S1200000, .i32⟩
  | 22 => ⟨S1200000x1, .i32⟩
  | 23 => ⟨S1200000x64, .f32⟩
  | 24 => ⟨S_, .f32⟩
  | 25 => ⟨S100000x64, .f32⟩
  | 26 => ⟨S1200000x1, .i32⟩
  | 27 => ⟨S100000x64, .f32⟩
  | 28 => ⟨S_, .f32⟩
  | 29 => ⟨S1200000x1, .f32⟩
  | 30 => ⟨S_, .f32⟩
  | 31 => ⟨S100000x1, .f32⟩
  | 32 => ⟨S1200000x1, .i32⟩
  | 33 => ⟨S100000x1, .f32⟩
  | 34 => ⟨S_, .f32⟩
  | 35 => ⟨S100000x1, .f32⟩
  | 36 => ⟨S100000x1, .f32⟩
  | 37 => ⟨S100000x64, .f32⟩
  | 38 => ⟨S100000x64, .f32⟩
  | 39 => ⟨S1x3x64x64, .f32⟩
  | 40 => ⟨S3x64x64, .f32⟩
  | 41 => ⟨S3x64x64, .bf16⟩
  | 42 => ⟨S1x3x64x64, .f32⟩
  | 43 => ⟨S3x64x64, .f32⟩
  | 44 => ⟨S3x64x64, .bf16⟩
  | 45 => ⟨S1x3x64, .f32⟩
  | 46 => ⟨S3x64, .f32⟩
  | 47 => ⟨S100000x64, .f32⟩
  | 48 => ⟨S100000x64, .f32⟩
  | 49 => ⟨S200000x64, .f32⟩
  | 50 => ⟨S64x64, .bf16⟩
  | 51 => ⟨S200000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S3x64x64, .bf16⟩
  | .local _ .vmem, ⟨11, _⟩ => ⟨S3x64x64, .bf16⟩
  | .local _ .vmem, ⟨12, _⟩ => ⟨S3x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S3x64x64, .bf16⟩
  | .local _ .vmem, ⟨28, _⟩ => ⟨S3x64x64, .bf16⟩
  | .local _ .vmem, ⟨29, _⟩ => ⟨S3x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S20000x64, .f32⟩
  | .local _ .vmem, ⟨35, _⟩ => ⟨S20000x64, .f32⟩
  | .local _ .vmem, ⟨36, _⟩ => ⟨S64x64, .bf16⟩
  | .local _ .vmem, ⟨37, _⟩ => ⟨S64, .f32⟩
  | .local _ .vmem, ⟨38, _⟩ => ⟨S20000x64, .f32⟩
  | .local _ .vmem, ⟨39, _⟩ => ⟨S20000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_10 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_13 : Ref sig .tc := ⟨.hbm, 74, rfl⟩
abbrev main_v46 : Ref sig .tc := ⟨.hbm, 75, rfl⟩
abbrev main_cst_14 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_15 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62_0 : Ref sig .tc := ⟨.hbm, 93, rfl⟩
abbrev main_v62_1 : Ref sig .tc := ⟨.hbm, 94, rfl⟩
abbrev main_c_16 : Ref sig .tc := ⟨.hbm, 95, rfl⟩
abbrev main_v63 : Ref sig .tc := ⟨.hbm, 96, rfl⟩
abbrev main_v64 : Ref sig .tc := ⟨.hbm, 97, rfl⟩
abbrev main_c_17 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_18 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_19 : Ref sig .tc := ⟨.hbm, 108, rfl⟩
abbrev main_v73 : Ref sig .tc := ⟨.hbm, 109, rfl⟩
abbrev main_cst_20 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_21 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_22 : Ref sig .tc := ⟨.hbm, 119, rfl⟩
abbrev main_v81 : Ref sig .tc := ⟨.hbm, 120, rfl⟩
abbrev main_v82 : Ref sig .tc := ⟨.hbm, 121, rfl⟩
abbrev main_c_23 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_24 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_25 : Ref sig .tc := ⟨.hbm, 132, rfl⟩
abbrev main_v91 : Ref sig .tc := ⟨.hbm, 133, rfl⟩
abbrev main_cst_26 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_27 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_c_28 : Ref sig .tc := ⟨.hbm, 143, rfl⟩
abbrev main_v99 : Ref sig .tc := ⟨.hbm, 144, rfl⟩
abbrev main_v100 : Ref sig .tc := ⟨.hbm, 145, rfl⟩
abbrev main_c_29 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_30 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_31 : Ref sig .tc := ⟨.hbm, 156, rfl⟩
abbrev main_v109 : Ref sig .tc := ⟨.hbm, 157, rfl⟩
abbrev main_cst_32 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_33 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125_0 : Ref sig .tc := ⟨.hbm, 175, rfl⟩
abbrev main_v125_1 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg3_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem8_1 : DmaSem sig := 31
abbrev cc1_sem9_0 : DmaSem sig := 32
abbrev cc1_sem9_1 : DmaSem sig := 33
abbrev cc2_sem0_0 : DmaSem sig := 34
abbrev cc2_sem0_1 : DmaSem sig := 35
abbrev cc2_sem1_0 : DmaSem sig := 36
abbrev cc2_sem2_0 : DmaSem sig := 37
abbrev cc2_sem3_0 : DmaSem sig := 38
abbrev cc2_sem3_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S3x64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x64x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S1200000x1 : S_.BroadcastsInDim S1200000x1 (![] : Fin 0 → Fin S1200000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S2x3x64x64_S1x3x64x64_0_0_0_0 : S2x3x64x64.Slices ![0, 0, 0, 0] S1x3x64x64
  shapeCasts_S1x3x64x64_S3x64x64 : S1x3x64x64.ShapeCasts S3x64x64
  bitsLt_bf16_f32 : FTy.bits .bf16 < FTy.bits .f32
  slices_S2x3x64_S1x3x64_0_0_0 : S2x3x64.Slices ![0, 0, 0] S1x3x64
  shapeCasts_S1x3x64_S3x64 : S1x3x64.ShapeCasts S3x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S3x64_S1x64_0_0 : ∀ a, (![0, 0] : Fin 2 → Nat) a + S1x64.size a ≤ S3x64.size a
  h_S1x64 : 0 < S1x64.numel
  shapeCasts_S1x64_S64 : S1x64.ShapeCasts S64
  inb_S3x64_S1x64_1_0 : ∀ a, (![1, 0] : Fin 2 → Nat) a + S1x64.size a ≤ S3x64.size a
  inb_S3x64_S1x64_2_0 : ∀ a, (![2, 0] : Fin 2 → Nat) a + S1x64.size a ≤ S3x64.size a
  shapeCasts_S64_S1x64 : S64.ShapeCasts S1x64
  broadcasts_S1x64_S5000x64 : S1x64.Broadcasts S5000x64
  slices_S2x3x64x64_S1x3x64x64_1_0_0_0 : S2x3x64x64.Slices ![1, 0, 0, 0] S1x3x64x64
  slices_S2x3x64_S1x3x64_1_0_0 : S2x3x64.Slices ![1, 0, 0] S1x3x64
  concatenates_S100000x64_S100000x64_S200000x64_d0 : Shape.Concatenates [S100000x64, S100000x64] S200000x64 0
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  broadcasts_S1x64_S20000x64 : S1x64.Broadcasts S20000x64
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000x1_S1200000x1_S1200000x1_1_0_0_1_wf : ScatterDims.WF S100000x1 S1200000x1 S1200000x1 [1] [0] [0] 1
  dot_S5000x64_S64x64_S5000x64_1_0_0_1_n_n_wf : DotDims.WF S5000x64 S64x64 S5000x64 [1] [0] [0] [1] [] []
  dot_S20000x64_S64x64_S20000x64_1_0_0_1_n_n_wf : DotDims.WF S20000x64 S64x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64x64.size a ≤ S3x64x64.size a
  hwx0_5 : ∀ i : grid0.Coords, EltTy.bits .bf16 = 32 ∨ (Rect.block (s := S3x64x64) S3x64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64x64.size a ≤ S3x64x64.size a
  hwx0_6 : ∀ i : grid0.Coords, EltTy.bits .bf16 = 32 ∨ (Rect.block (s := S3x64x64) S3x64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x64.size a ≤ S3x64.size a
  hwx0_7 : ∀ i : grid0.Coords, EltTy.bits .f32 = 32 ∨ (Rect.block (s := S3x64) S3x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S100000x64.size a
  hwx0_8 : ∀ i : grid0.Coords, EltTy.bits .f32 = 32 ∨ (Rect.block (s := S100000x64) S5000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S100000x64.size a
  hwx0_9 : ∀ i : grid0.Coords, EltTy.bits .f32 = 32 ∨ (Rect.block (s := S100000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x64x64.size a ≤ S3x64x64.size a
  hwx1_5 : ∀ i : grid1.Coords, EltTy.bits .bf16 = 32 ∨ (Rect.block (s := S3x64x64) S3x64x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3x64x64.size a ≤ S3x64x64.size a
  hwx1_6 : ∀ i : grid1.Coords, EltTy.bits .bf16 = 32 ∨ (Rect.block (s := S3x64x64) S3x64x64.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x64.size a ≤ S3x64.size a
  hwx1_7 : ∀ i : grid1.Coords, EltTy.bits .f32 = 32 ∨ (Rect.block (s := S3x64) S3x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S200000x64.size a
  hwx2_0 : ∀ i : grid2.Coords, EltTy.bits .f32 = 32 ∨ (Rect.block (s := S200000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .bf16 = 32 ∨ (Rect.block (s := S64x64) S64x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x64.size a ≤ S200000x64.size a
  hwx2_3 : ∀ i : grid2.Coords, EltTy.bits .f32 = 32 ∨ (Rect.block (s := S200000x64) S20000x64.size (cc2_transform_3 i) (hinb2_3 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v53) S5000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v56) S3x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v59) S3x64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v61) S3x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v62_0) S5000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v62_1) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v62_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62_1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v80) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v98) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v116) S5000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v119) S3x64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v122) S3x64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v124) S3x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v125_0) S5000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v125_1) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v126) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v127) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v128) S20000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x3x64x64 : Shape := ⟨4, ![2, 3, 64, 64]⟩
abbrev S2x3x64 : Shape := ⟨3, ![2, 3, 64]⟩
abbrev S64x64 : Shape := ⟨2, ![64, 64]⟩
abbrev S64 : Shape := ⟨1, ![64]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x1x64x64 : Shape := ⟨4, ![1, 1, 64, 64]⟩
abbrev S1x1x64 : Shape := ⟨3, ![1, 1, 64]⟩
abbrev S1x64 : Shape := ⟨2, ![1, 64]⟩
abbrev S200000x64 : Shape := ⟨2, ![200000, 64]⟩

abbrev nBuf : Space → Nat
  | .hbm => 246
  | .vmem => 0
  | .smem => 0
  | _ => 0

abbrev hbmTy0_0 (i : Nat) : BufTy := match i % 128 with
  | 0 => ⟨S100000x64, .f32⟩
  | 1 => ⟨S100000x64, .f32⟩
  | 2 => ⟨S2x3x64x64, .f32⟩
  | 3 => ⟨S2x3x64x64, .f32⟩
  | 4 => ⟨S2x3x64, .f32⟩
  | 5 => ⟨S64x64, .f32⟩
  | 6 => ⟨S64, .f32⟩
  | 7 => ⟨S1200000, .i32⟩
  | 8 => ⟨S1200000, .i32⟩
  | 9 => ⟨S1200000, .i32⟩
  | 10 => ⟨S1200000, .i32⟩
  | 11 => ⟨S1200000, .i32⟩
  | 12 => ⟨S1200000, .i32⟩
  | 13 => ⟨S_, .i32⟩
  | 14 => ⟨S1200000, .i32⟩
  | 15 => ⟨S1200000, .i1⟩
  | 16 => ⟨S_, .i32⟩
  | 17 => ⟨S1200000, .i32⟩
  | 18 => ⟨S1200000, .i32⟩
  | 19 => ⟨S1200000, .i32⟩
  | 20 => ⟨S1200000x1, .i32⟩
  | 21 => ⟨S1200000x64, .f32⟩
  | 22 => ⟨S_, .f32⟩
  | 23 => ⟨S100000x64, .f32⟩
  | 24 => ⟨S1200000x1, .i32⟩
  | 25 => ⟨S100000x64, .f32⟩
  | 26 => ⟨S_, .f32⟩
  | 27 => ⟨S1200000x1, .f32⟩
  | 28 => ⟨S_, .f32⟩
  | 29 => ⟨S100000x1, .f32⟩
  | 30 => ⟨S1200000x1, .i32⟩
  | 31 => ⟨S100000x1, .f32⟩
  | 32 => ⟨S_, .f32⟩
  | 33 => ⟨S100000x1, .f32⟩
  | 34 => ⟨S100000x1, .f32⟩
  | 35 => ⟨S100000x64, .f32⟩
  | 36 => ⟨S100000x64, .f32⟩
  | 37 => ⟨S_, .i32⟩
  | 38 => ⟨S1200000, .i32⟩
  | 39 => ⟨S1200000, .i1⟩
  | 40 => ⟨S_, .i32⟩
  | 41 => ⟨S1200000, .i32⟩
  | 42 => ⟨S1200000, .i32⟩
  | 43 => ⟨S1200000, .i32⟩
  | 44 => ⟨S1200000x1, .i32⟩
  | 45 => ⟨S1200000x64, .f32⟩
  | 46 => ⟨S_, .f32⟩
  | 47 => ⟨S100000x64, .f32⟩
  | 48 => ⟨S1200000x1, .i32⟩
  | 49 => ⟨S100000x64, .f32⟩
  | 50 => ⟨S_, .f32⟩
  | 51 => ⟨S1200000x1, .f32⟩
  | 52 => ⟨S_, .f32⟩
  | 53 => ⟨S100000x1, .f32⟩
  | 54 => ⟨S1200000x1, .i32⟩
  | 55 => ⟨S100000x1, .f32⟩
  | 56 => ⟨S_, .f32⟩
  | 57 => ⟨S100000x1, .f32⟩
  | 58 => ⟨S100000x1, .f32⟩
  | 59 => ⟨S100000x64, .f32⟩
  | 60 => ⟨S100000x64, .f32⟩
  | 61 => ⟨S_, .i32⟩
  | 62 => ⟨S1200000, .i32⟩
  | 63 => ⟨S1200000, .i1⟩
  | 64 => ⟨S_, .i32⟩
  | 65 => ⟨S1200000, .i32⟩
  | 66 => ⟨S1200000, .i32⟩
  | 67 => ⟨S1200000, .i32⟩
  | 68 => ⟨S1200000x1, .i32⟩
  | 69 => ⟨S1200000x64, .f32⟩
  | 70 => ⟨S_, .f32⟩
  | 71 => ⟨S100000x64, .f32⟩
  | 72 => ⟨S1200000x1, .i32⟩
  | 73 => ⟨S100000x64, .f32⟩
  | 74 => ⟨S_, .f32⟩
  | 75 => ⟨S1200000x1, .f32⟩
  | 76 => ⟨S_, .f32⟩
  | 77 => ⟨S100000x1, .f32⟩
  | 78 => ⟨S1200000x1, .i32⟩
  | 79 => ⟨S100000x1, .f32⟩
  | 80 => ⟨S_, .f32⟩
  | 81 => ⟨S100000x1, .f32⟩
  | 82 => ⟨S100000x1, .f32⟩
  | 83 => ⟨S100000x64, .f32⟩
  | 84 => ⟨S100000x64, .f32⟩
  | 85 => ⟨S1x1x64x64, .f32⟩
  | 86 => ⟨S64x64, .f32⟩
  | 87 => ⟨S100000x64, .f32⟩
  | 88 => ⟨S1x1x64x64, .f32⟩
  | 89 => ⟨S64x64, .f32⟩
  | 90 => ⟨S100000x64, .f32⟩
  | 91 => ⟨S100000x64, .f32⟩
  | 92 => ⟨S1x1x64, .f32⟩
  | 93 => ⟨S64, .f32⟩
  | 94 => ⟨S1x64, .f32⟩
  | 95 => ⟨S100000x64, .f32⟩
  | 96 => ⟨S100000x64, .f32⟩
  | 97 => ⟨S1x1x64x64, .f32⟩
  | 98 => ⟨S64x64, .f32⟩
  | 99 => ⟨S100000x64, .f32⟩
  | 100 => ⟨S1x1x64x64, .f32⟩
  | 101 => ⟨S64x64, .f32⟩
  | 102 => ⟨S100000x64, .f32⟩
  | 103 => ⟨S100000x64, .f32⟩
  | 104 => ⟨S1x1x64, .f32⟩
  | 105 => ⟨S64, .f32⟩
  | 106 => ⟨S1x64, .f32⟩
  | 107 => ⟨S100000x64, .f32⟩
  | 108 => ⟨S100000x64, .f32⟩
  | 109 => ⟨S1x1x64x64, .f32⟩
  | 110 => ⟨S64x64, .f32⟩
  | 111 => ⟨S100000x64, .f32⟩
  | 112 => ⟨S100000x64, .f32⟩
  | 113 => ⟨S1x1x64x64, .f32⟩
  | 114 => ⟨S64x64, .f32⟩
  | 115 => ⟨S100000x64, .f32⟩
  | 116 => ⟨S100000x64, .f32⟩
  | 117 => ⟨S1x1x64, .f32⟩
  | 118 => ⟨S64, .f32⟩
  | 119 => ⟨S1x64, .f32⟩
  | 120 => ⟨S100000x64, .f32⟩
  | 121 => ⟨S100000x64, .f32⟩
  | 122 => ⟨S_, .i32⟩
  | 123 => ⟨S1200000, .i32⟩
  | 124 => ⟨S1200000, .i1⟩
  | 125 => ⟨S_, .i32⟩
  | 126 => ⟨S1200000, .i32⟩
  | 127 => ⟨S1200000, .i32⟩
  | _ => ⟨S100000x64, .f32⟩

abbrev hbmTy0_1 (i : Nat) : BufTy := match i % 128 with
  | 0 => ⟨S1200000, .i32⟩
  | 1 => ⟨S1200000x1, .i32⟩
  | 2 => ⟨S1200000x64, .f32⟩
  | 3 => ⟨S_, .f32⟩
  | 4 => ⟨S100000x64, .f32⟩
  | 5 => ⟨S1200000x1, .i32⟩
  | 6 => ⟨S100000x64, .f32⟩
  | 7 => ⟨S_, .f32⟩
  | 8 => ⟨S1200000x1, .f32⟩
  | 9 => ⟨S_, .f32⟩
  | 10 => ⟨S100000x1, .f32⟩
  | 11 => ⟨S1200000x1, .i32⟩
  | 12 => ⟨S100000x1, .f32⟩
  | 13 => ⟨S_, .f32⟩
  | 14 => ⟨S100000x1, .f32⟩
  | 15 => ⟨S100000x1, .f32⟩
  | 16 => ⟨S100000x64, .f32⟩
  | 17 => ⟨S100000x64, .f32⟩
  | 18 => ⟨S_, .i32⟩
  | 19 => ⟨S1200000, .i32⟩
  | 20 => ⟨S1200000, .i1⟩
  | 21 => ⟨S_, .i32⟩
  | 22 => ⟨S1200000, .i32⟩
  | 23 => ⟨S1200000, .i32⟩
  | 24 => ⟨S1200000, .i32⟩
  | 25 => ⟨S1200000x1, .i32⟩
  | 26 => ⟨S1200000x64, .f32⟩
  | 27 => ⟨S_, .f32⟩
  | 28 => ⟨S100000x64, .f32⟩
  | 29 => ⟨S1200000x1, .i32⟩
  | 30 => ⟨S100000x64, .f32⟩
  | 31 => ⟨S_, .f32⟩
  | 32 => ⟨S1200000x1, .f32⟩
  | 33 => ⟨S_, .f32⟩
  | 34 => ⟨S100000x1, .f32⟩
  | 35 => ⟨S1200000x1, .i32⟩
  | 36 => ⟨S100000x1, .f32⟩
  | 37 => ⟨S_, .f32⟩
  | 38 => ⟨S100000x1, .f32⟩
  | 39 => ⟨S100000x1, .f32⟩
  | 40 => ⟨S100000x64, .f32⟩
  | 41 => ⟨S100000x64, .f32⟩
  | 42 => ⟨S_, .i32⟩
  | 43 => ⟨S1200000, .i32⟩
  | 44 => ⟨S1200000, .i1⟩
  | 45 => ⟨S_, .i32⟩
  | 46 => ⟨S1200000, .i32⟩
  | 47 => ⟨S1200000, .i32⟩
  | 48 => ⟨S1200000, .i32⟩
  | 49 => ⟨S1200000x1, .i32⟩
  | 50 => ⟨S1200000x64, .f32⟩
  | 51 => ⟨S_, .f32⟩
  | 52 => ⟨S100000x64, .f32⟩
  | 53 => ⟨S1200000x1, .i32⟩
  | 54 => ⟨S100000x64, .f32⟩
  | 55 => ⟨S_, .f32⟩
  | 56 => ⟨S1200000x1, .f32⟩
  | 57 => ⟨S_, .f32⟩
  | 58 => ⟨S100000x1, .f32⟩
  | 59 => ⟨S1200000x1, .i32⟩
  | 60 => ⟨S100000x1, .f32⟩
  | 61 => ⟨S_, .f32⟩
  | 62 => ⟨S100000x1, .f32⟩
  | 63 => ⟨S100000x1, .f32⟩
  | 64 => ⟨S100000x64, .f32⟩
  | 65 => ⟨S100000x64, .f32⟩
  | 66 => ⟨S1x1x64x64, .f32⟩
  | 67 => ⟨S64x64, .f32⟩
  | 68 => ⟨S100000x64, .f32⟩
  | 69 => ⟨S1x1x64x64, .f32⟩
  | 70 => ⟨S64x64, .f32⟩
  | 71 => ⟨S100000x64, .f32⟩
  | 72 => ⟨S100000x64, .f32⟩
  | 73 => ⟨S1x1x64, .f32⟩
  | 74 => ⟨S64, .f32⟩
  | 75 => ⟨S1x64, .f32⟩
  | 76 => ⟨S100000x64, .f32⟩
  | 77 => ⟨S100000x64, .f32⟩
  | 78 => ⟨S1x1x64x64, .f32⟩
  | 79 => ⟨S64x64, .f32⟩
  | 80 => ⟨S100000x64, .f32⟩
  | 81 => ⟨S1x1x64x64, .f32⟩
  | 82 => ⟨S64x64, .f32⟩
  | 83 => ⟨S100000x64, .f32⟩
  | 84 => ⟨S100000x64, .f32⟩
  | 85 => ⟨S1x1x64, .f32⟩
  | 86 => ⟨S64, .f32⟩
  | 87 => ⟨S1x64, .f32⟩
  | 88 => ⟨S100000x64, .f32⟩
  | 89 => ⟨S100000x64, .f32⟩
  | 90 => ⟨S1x1x64x64, .f32⟩
  | 91 => ⟨S64x64, .f32⟩
  | 92 => ⟨S100000x64, .f32⟩
  | 93 => ⟨S100000x64, .f32⟩
  | 94 => ⟨S1x1x64x64, .f32⟩
  | 95 => ⟨S64x64, .f32⟩
  | 96 => ⟨S100000x64, .f32⟩
  | 97 => ⟨S100000x64, .f32⟩
  | 98 => ⟨S1x1x64, .f32⟩
  | 99 => ⟨S64, .f32⟩
  | 100 => ⟨S1x64, .f32⟩
  | 101 => ⟨S100000x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S200000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_10 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_13 : Ref sig .tc := ⟨.hbm, 74, rfl⟩
abbrev main_v46 : Ref sig .tc := ⟨.hbm, 75, rfl⟩
abbrev main_cst_14 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_15 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_16 : Ref sig .tc := ⟨.hbm, 122, rfl⟩
abbrev main_v91 : Ref sig .tc := ⟨.hbm, 123, rfl⟩
abbrev main_v92 : Ref sig .tc := ⟨.hbm, 124, rfl⟩
abbrev main_c_17 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_18 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_19 : Ref sig .tc := ⟨.hbm, 135, rfl⟩
abbrev main_v101 : Ref sig .tc := ⟨.hbm, 136, rfl⟩
abbrev main_cst_20 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_21 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_22 : Ref sig .tc := ⟨.hbm, 146, rfl⟩
abbrev main_v109 : Ref sig .tc := ⟨.hbm, 147, rfl⟩
abbrev main_v110 : Ref sig .tc := ⟨.hbm, 148, rfl⟩
abbrev main_c_23 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_24 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_25 : Ref sig .tc := ⟨.hbm, 159, rfl⟩
abbrev main_v119 : Ref sig .tc := ⟨.hbm, 160, rfl⟩
abbrev main_cst_26 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_27 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_28 : Ref sig .tc := ⟨.hbm, 170, rfl⟩
abbrev main_v127 : Ref sig .tc := ⟨.hbm, 171, rfl⟩
abbrev main_v128 : Ref sig .tc := ⟨.hbm, 172, rfl⟩
abbrev main_c_29 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_30 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_31 : Ref sig .tc := ⟨.hbm, 183, rfl⟩
abbrev main_v137 : Ref sig .tc := ⟨.hbm, 184, rfl⟩
abbrev main_cst_32 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_33 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_call0_cst : Ref sig .tc := ⟨.hbm, 235, rfl⟩
abbrev main_call0_v0 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_call1_cst : Ref sig .tc := ⟨.hbm, 242, rfl⟩
abbrev main_call1_v0 : Ref sig .tc := ⟨.hbm, 243, rfl⟩
abbrev main_v191 : Ref sig .tc := ⟨.hbm, 244, rfl⟩
abbrev main_v192 : Ref sig .tc := ⟨.hbm, 245, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S1200000x1 : S_.BroadcastsInDim S1200000x1 (![] : Fin 0 → Fin S1200000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S2x3x64x64_S1x1x64x64_0_0_0_0 : S2x3x64x64.Slices ![0, 0, 0, 0] S1x1x64x64
  shapeCasts_S1x1x64x64_S64x64 : S1x1x64x64.ShapeCasts S64x64
  slices_S2x3x64_S1x1x64_0_0_0 : S2x3x64.Slices ![0, 0, 0] S1x1x64
  shapeCasts_S1x1x64_S64 : S1x1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x3x64x64_S1x1x64x64_0_1_0_0 : S2x3x64x64.Slices ![0, 1, 0, 0] S1x1x64x64
  slices_S2x3x64_S1x1x64_0_1_0 : S2x3x64.Slices ![0, 1, 0] S1x1x64
  slices_S2x3x64x64_S1x1x64x64_0_2_0_0 : S2x3x64x64.Slices ![0, 2, 0, 0] S1x1x64x64
  slices_S2x3x64_S1x1x64_0_2_0 : S2x3x64.Slices ![0, 2, 0] S1x1x64
  slices_S2x3x64x64_S1x1x64x64_1_0_0_0 : S2x3x64x64.Slices ![1, 0, 0, 0] S1x1x64x64
  slices_S2x3x64_S1x1x64_1_0_0 : S2x3x64.Slices ![1, 0, 0] S1x1x64
  slices_S2x3x64x64_S1x1x64x64_1_1_0_0 : S2x3x64x64.Slices ![1, 1, 0, 0] S1x1x64x64
  slices_S2x3x64_S1x1x64_1_1_0 : S2x3x64.Slices ![1, 1, 0] S1x1x64
  slices_S2x3x64x64_S1x1x64x64_1_2_0_0 : S2x3x64x64.Slices ![1, 2, 0, 0] S1x1x64x64
  slices_S2x3x64_S1x1x64_1_2_0 : S2x3x64.Slices ![1, 2, 0] S1x1x64
  concatenates_S100000x64_S100000x64_S200000x64_d0 : Shape.Concatenates [S100000x64, S100000x64] S200000x64 0
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000x1_S1200000x1_S1200000x1_1_0_0_1_wf : ScatterDims.WF S100000x1 S1200000x1 S1200000x1 [1] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run with its result named.

  The program is three kernel regions among stretches of host operations.  The generated frame walks the
  TensorCore's buffer contents from the launch memory through every segment boundary (`Gen.W0 … Gen.W6`: a host
  stretch applies its operations, a region replaces its arrays by what its write-backs leave) and reads the
  argument arrays off the last boundary.  Reading the RESULT array off the same boundary gives: every weakly
  fair execution terminates without a fault, the result array holds the last boundary's contents at its
  buffer, and the arguments end unchanged.
-/
import proofs.«119357_j61100204753259_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain
-- definitions in a metavariable's type
set_option backward.isDefEq.respectTransparency.types false in
/-- Every weakly fair execution of @main terminates, nothing faulting; the result array ends at the last
    boundary's contents `Gen.W6` at its buffer, and every argument array as launched. -/
theorem run : θ_run defs (onTc (τ := τ) (main (F := F))) ⟨m, fun _ => 0, ρ⟩ (fun r => ∀ c : Dev nD,
      r.2.mem ((c.tc : Thread nD τ).loc main_v128) = W6 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v128 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Named

end
-- ==== Proof.Spec.lean ====
/-
  What both programs compute, at the ideal instance, written once and index by index over the extended reals.

  Two rounds of message passing on a graph with two node types, then a linear head with a rectifier.
  A node feature matrix has 64 columns; a weight stack holds, per round and per edge type, a 64×64 matrix,
  and a bias stack a 64-vector.  With `m0, m1, m2` the three mean-aggregated neighbour features of a
  round (aggregation is a parameter here: both programs apply the same operator, so it is never opened),

    new_B[p, q] = (Σₖ m0[p,k]·Wn[0,k,q] + Σₖ x_B[p,k]·Wr[0,k,q]) + b[0,q]
    new_A[p, q] = (((((Σₖ m1[p,k]·Wn[1,k,q] + Σₖ x_A[p,k]·Wr[1,k,q]) + b[1,q])
                    + Σₖ m2[p,k]·Wn[2,k,q]) + Σₖ x_A[p,k]·Wr[2,k,q]) + b[2,q])

  the sums grouped exactly in this order (no law of the extended reals beyond this grouping is used, so no
  finiteness is needed), and the result is `max (Σₖ x[p,k]·W[k,q] + b[q]) 0` over the rows of `new_A`
  stacked on top of the rows of `new_B`.
  The formulas take the row count as a parameter: a block of rows and the whole array satisfy the same one.
-/
import Idealize.ShloMosaic.Lib.ValueIdx
import Idealize.ShloMosaic.PureOps.Ideal

noncomputable section

namespace Cert.Spec

open Idealize.ShloMosaic Idealize.ShloMosaic.ValueIdx

/-- A matrix of `n` rows and 64 columns of extended reals. -/
abbrev Rows (n : Nat) : Type := (⟨2, ![n, 64]⟩ : Shape).Idx → EReal
/-- One round's three 64×64 matrices, by edge type. -/
abbrev W3 : Type := (⟨3, ![3, 64, 64]⟩ : Shape).Idx → EReal
/-- One round's three bias vectors, by edge type. -/
abbrev B3 : Type := (⟨2, ![3, 64]⟩ : Shape).Idx → EReal
/-- Both rounds' matrices: round, edge type, row, column. -/
abbrev W4 : Type := (⟨4, ![2, 3, 64, 64]⟩ : Shape).Idx → EReal
/-- Both rounds' biases: round, edge type, column. -/
abbrev B4 : Type := (⟨3, ![2, 3, 64]⟩ : Shape).Idx → EReal
/-- The head's 64×64 matrix and its bias. -/
abbrev W2 : Type := (⟨2, ![64, 64]⟩ : Shape).Idx → EReal
abbrev B1 : Type := (⟨1, ![64]⟩ : Shape).Idx → EReal

/-- Row `p` of `x` against column `q` of the matrix of edge type `e`. -/
def dot64 {n : Nat} (x : Rows n) (W : W3) (e : Fin 3) (p : Fin n) (q : Fin 64) : EReal :=
  ∑ k : Fin 64, x (ix2 p k) * W (ix3 e k q)

/-- The second node type's new feature: neighbours through edge type 0, itself, bias. -/
def newB {n : Nat} (m0 xB : Rows n) (Wn Wr : W3) (b : B3) (p : Fin n) (q : Fin 64) : EReal :=
  (dot64 m0 Wn 0 p q + dot64 xB Wr 0 p q) + b (ix2 0 q)

/-- The first node type's new feature: edge types 1 and 2, summed in the programs' order. -/
def newA {n : Nat} (m1 m2 xA : Rows n) (Wn Wr : W3) (b : B3) (p : Fin n) (q : Fin 64) : EReal :=
  (((((dot64 m1 Wn 1 p q + dot64 xA Wr 1 p q) + b (ix2 1 q)) + dot64 m2 Wn 2 p q) + dot64 xA Wr 2 p q) + b (ix2 2 q))

/-- The head at one entry: a row against a column of `W`, plus bias, rectified. -/
def headAt {n : Nat} (x : Rows n) (W : W2) (b : B1) (p : Fin n) (q : Fin 64) : EReal :=
  max ((∑ k : Fin 64, x (ix2 p k) * W (ix2 k q)) + b (ix1 q)) 0

/-- Round `l`'s matrices out of the stack. -/
def sliceW (x : W4) (l : Fin 2) : W3 := fun i => x (ix4 l ⟨(i 0).val, (i 0).isLt⟩ ⟨(i 1).val, (i 1).isLt⟩ ⟨(i 2).val, (i 2).isLt⟩)
/-- Round `l`'s biases out of the stack. -/
def sliceB (x : B4) (l : Fin 2) : B3 := fun i => x (ix3 l ⟨(i 0).val, (i 0).isLt⟩ ⟨(i 1).val, (i 1).isLt⟩)

/-- `a`'s rows on top of `b`'s. -/
def cat (a b : Rows 100000) : Rows 200000 := fun i =>
  if h : (i 0).val < 100000 then a (ix2 ⟨(i 0).val, h⟩ ⟨(i 1).val, (i 1).isLt⟩)
  else b (ix2 ⟨(i 0).val - 100000, by have h0 : (i 0).val < 200000 := (i 0).isLt; omega⟩ ⟨(i 1).val, (i 1).isLt⟩)

/-- One round, first node type; `g1`, `g2` aggregate over edge types 1 (from the second type) and 2 (from the first). -/
def layerA (g1 g2 : Rows 100000 → Rows 100000) (xA xB : Rows 100000) (Wn Wr : W4) (b : B4) (l : Fin 2) : Rows 100000 :=
  fun i => newA (g1 xB) (g2 xA) xA (sliceW Wn l) (sliceW Wr l) (sliceB b l) ⟨(i 0).val, (i 0).isLt⟩ ⟨(i 1).val, (i 1).isLt⟩
/-- One round, second node type; `g0` aggregates over edge type 0 (from the first type). -/
def layerB (g0 : Rows 100000 → Rows 100000) (xA xB : Rows 100000) (Wn Wr : W4) (b : B4) (l : Fin 2) : Rows 100000 :=
  fun i => newB (g0 xA) xB (sliceW Wn l) (sliceW Wr l) (sliceB b l) ⟨(i 0).val, (i 0).isLt⟩ ⟨(i 1).val, (i 1).isLt⟩

/-- The head over a stacked matrix. -/
def head (x : Rows 200000) (W : W2) (b : B1) : Rows 200000 :=
  fun i => headAt x W b ⟨(i 0).val, (i 0).isLt⟩ ⟨(i 1).val, (i 1).isLt⟩

/-- The whole computation: two rounds, then the head over the two node types stacked. -/
def result (g0 g1 g2 : Rows 100000 → Rows 100000) (xA xB : Rows 100000) (Wn Wr : W4) (b : B4) (W : W2) (bo : B1) : Rows 200000 :=
  head (cat (layerA g1 g2 (layerA g1 g2 xA xB Wn Wr b 0) (layerB g0 xA xB Wn Wr b 0) Wn Wr b 1)
            (layerB g0 (layerA g1 g2 xA xB Wn Wr b 0) (layerB g0 xA xB Wn Wr b 0) Wn Wr b 1)) W bo

end Cert.Spec

end
-- ==== Proof.SpecConcat.lean ====
/-
  Stacking two 100000-row matrices along the row axis, read at an index: a row below 100000 comes from the first
  matrix at the same row, a row from 100000 on from the second at the row minus 100000.
-/
import proofs.«119357_j61100204753259_1_alg».proof.Proof.Spec
import Idealize.ShloMosaic.Lib.Pipeline.Value

noncomputable section

namespace Cert.Spec

open Idealize.ShloMosaic Idealize.ShloMosaic.ValueIdx

/-- The two-operand concatenation along axis 0 is `cat`, whichever proof of the shapes' fit it carries. -/
theorem concatenate_rows (h : Shape.Concatenates [(⟨2, ![100000, 64]⟩ : Shape), (⟨2, ![100000, 64]⟩ : Shape)] (⟨2, ![200000, 64]⟩ : Shape) (0 : Fin 2))
    (a b : Rows 100000) :
    concatenate (⟨2, ![200000, 64]⟩ : Shape) (0 : Fin 2) [⟨(⟨2, ![100000, 64]⟩ : Shape), a⟩, ⟨(⟨2, ![100000, 64]⟩ : Shape), b⟩] h = cat a b := by
  funext j
  have hj0 : (j 0).val < 200000 := (j 0).isLt
  unfold cat
  split
  · rename_i hlt
    exact concatenate_pair_apply_left (0 : Fin 2) a b h j rfl (ix2 ⟨(j 0).val, hlt⟩ ⟨(j 1).val, (j 1).isLt⟩)
      (fun d => by match d with | ⟨0, _⟩ => rfl | ⟨1, _⟩ => rfl)
  · rename_i hge
    exact concatenate_pair_apply_right (0 : Fin 2) a b h j rfl rfl (ix2 ⟨(j 0).val - 100000, by omega⟩ ⟨(j 1).val, (j 1).isLt⟩)
      (fun d hd => by match d with | ⟨0, _⟩ => exact absurd rfl hd | ⟨1, _⟩ => rfl)
      (by show (j 0).val - 100000 + 100000 = (j 0).val; omega)

end Cert.Spec

end
-- ==== Proof.ArgsKept.lean ====
/-
  Buffers that a stretch of host operations, or a region, does not write keep their contents across it.
  The argument arrays are written by nothing, so at every boundary of the run they still hold the launch memory;
  a region's result arrays are not written by the host stretch that follows it.
-/
import proofs.«119357_j61100204753259_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## The first host stretch writes no argument -/

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg10 (c : Dev nD) : W1 m ρ c (Proc.devRef .tc main_arg10) = m ((c : Thread nD τ).loc main_arg10) :=
  (StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg11 (c : Dev nD) : W1 m ρ c (Proc.devRef .tc main_arg11) = m ((c : Thread nD τ).loc main_arg11) :=
  (StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg12 (c : Dev nD) : W1 m ρ c (Proc.devRef .tc main_arg12) = m ((c : Thread nD τ).loc main_arg12) :=
  (StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-! ## Region 0 writes no argument it does not read through a window -/

theorem W2_arg2 (c : Dev nD) : W2 m ρ c (Proc.devRef .tc main_arg2) = m ((c : Thread nD τ).loc main_arg2) :=
  (W2_of_ne m ρ c main_arg2 (by decide)).trans (W1_arg2 m ρ c)

theorem W2_arg3 (c : Dev nD) : W2 m ρ c (Proc.devRef .tc main_arg3) = m ((c : Thread nD τ).loc main_arg3) :=
  (W2_of_ne m ρ c main_arg3 (by decide)).trans (W1_arg3 m ρ c)

theorem W2_arg4 (c : Dev nD) : W2 m ρ c (Proc.devRef .tc main_arg4) = m ((c : Thread nD τ).loc main_arg4) :=
  (W2_of_ne m ρ c main_arg4 (by decide)).trans (W1_arg4 m ρ c)

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

theorem W2_arg10 (c : Dev nD) : W2 m ρ c (Proc.devRef .tc main_arg10) = m ((c : Thread nD τ).loc main_arg10) :=
  (W2_of_ne m ρ c main_arg10 (by decide)).trans (W1_arg10 m ρ c)

theorem W2_arg11 (c : Dev nD) : W2 m ρ c (Proc.devRef .tc main_arg11) = m ((c : Thread nD τ).loc main_arg11) :=
  (W2_of_ne m ρ c main_arg11 (by decide)).trans (W1_arg11 m ρ c)

theorem W2_arg12 (c : Dev nD) : W2 m ρ c (Proc.devRef .tc main_arg12) = m ((c : Thread nD τ).loc main_arg12) :=
  (W2_of_ne m ρ c main_arg12 (by decide)).trans (W1_arg12 m ρ c)

/-! ## The second host stretch writes neither region 0's results nor the head's arguments -/

theorem W3_v62_0 (c : Dev nD) : W3 m ρ c (Proc.devRef .tc main_v62_0) = W2 m ρ c (Proc.devRef .tc main_v62_0) :=
  StableHlo.after_of_forall_not_mem (b := Proc.devRef .tc main_v62_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_v62_1 (c : Dev nD) : W3 m ρ c (Proc.devRef .tc main_v62_1) = W2 m ρ c (Proc.devRef .tc main_v62_1) :=
  StableHlo.after_of_forall_not_mem (b := Proc.devRef .tc main_v62_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_arg5 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_arg6 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## Region 1 and the last stretch leave the head's arguments -/

theorem W4_arg5 (c : Dev nD) : W4 m ρ c (Proc.devRef .tc main_arg5) = m ((c : Thread nD τ).loc main_arg5) :=
  (W4_of_ne m ρ c main_arg5 (by decide)).trans ((W3_arg5 m ρ c).trans (W2_arg5 m ρ c))
theorem W4_arg6 (c : Dev nD) : W4 m ρ c (Proc.devRef .tc main_arg6) = m ((c : Thread nD τ).loc main_arg6) :=
  (W4_of_ne m ρ c main_arg6 (by decide)).trans ((W3_arg6 m ρ c).trans (W2_arg6 m ρ c))
theorem W5_arg6 (c : Dev nD) : W5 m ρ c (Proc.devRef .tc main_arg6) = m ((c : Thread nD τ).loc main_arg6) :=
  (StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg6 m ρ c)

end Cert.KernelIdeal.Kept

end
-- ==== Proof.Slices.lean ====
/-
  A round's matrices and biases out of the stacks, as the programs compute them: a unit-stride slice of the round
  axis at offset `l`, then a reshape that drops that axis.  Read at an index this is the stack at round `l`.
-/
import proofs.«119357_j61100204753259_1_alg».proof.Proof.Spec
import Idealize.ShloMosaic.Lib.Pipeline.Value

noncomputable section

namespace Cert.Spec

open Idealize.ShloMosaic Idealize.ShloMosaic.ValueIdx

theorem wstack_0 (x : W4) (hs : (⟨4, ![2, 3, 64, 64]⟩ : Shape).Slices ![0, 0, 0, 0] (⟨4, ![1, 3, 64, 64]⟩ : Shape))
    (hc : (⟨4, ![1, 3, 64, 64]⟩ : Shape).ShapeCasts (⟨3, ![3, 64, 64]⟩ : Shape)) :
    shapeCast (⟨3, ![3, 64, 64]⟩ : Shape) (extractStridedSlice (⟨4, ![1, 3, 64, 64]⟩ : Shape) ![0, 0, 0, 0] x hs) hc = sliceW x 0 := by
  funext i
  obtain ⟨e, k, q, rfl⟩ : ∃ (e : Fin 3) (k q : Fin 64), i = ix3 e k q := ⟨i 0, i 1, i 2, eq_ix3 i⟩
  rw [shapeCast_apply _ hc (ix3 e k q) (ix4 (0 : Fin 1) e k q) (by
    rw [Shape.rowMajor_val_four, Shape.rowMajor_val_three]
    show ((0 * 3 + e.val) * 64 + k.val) * 64 + q.val = (e.val * 64 + k.val) * 64 + q.val; omega)]
  rw [extractStridedSlice_apply ![0, 0, 0, 0] x hs (ix4 (0 : Fin 1) e k q) (ix4 (0 : Fin 2) e k q) (fun a => by
    match a with
    | ⟨0, _⟩ => rfl
    | ⟨1, _⟩ => show e.val = 0 + e.val; omega
    | ⟨2, _⟩ => show k.val = 0 + k.val; omega
    | ⟨3, _⟩ => show q.val = 0 + q.val; omega)]
  rfl

theorem bstack_0 (x : B4) (hs : (⟨3, ![2, 3, 64]⟩ : Shape).Slices ![0, 0, 0] (⟨3, ![1, 3, 64]⟩ : Shape))
    (hc : (⟨3, ![1, 3, 64]⟩ : Shape).ShapeCasts (⟨2, ![3, 64]⟩ : Shape)) :
    shapeCast (⟨2, ![3, 64]⟩ : Shape) (extractStridedSlice (⟨3, ![1, 3, 64]⟩ : Shape) ![0, 0, 0] x hs) hc = sliceB x 0 := by
  funext i
  obtain ⟨e, q, rfl⟩ : ∃ (e : Fin 3) (q : Fin 64), i = ix2 e q := ⟨i 0, i 1, eq_ix2 i⟩
  rw [shapeCast_apply _ hc (ix2 e q) (ix3 (0 : Fin 1) e q) (by
    rw [Shape.rowMajor_val_three, Shape.rowMajor_val_two]
    show (0 * 3 + e.val) * 64 + q.val = e.val * 64 + q.val; omega)]
  rw [extractStridedSlice_apply ![0, 0, 0] x hs (ix3 (0 : Fin 1) e q) (ix3 (0 : Fin 2) e q) (fun a => by
    match a with
    | ⟨0, _⟩ => rfl
    | ⟨1, _⟩ => show e.val = 0 + e.val; omega
    | ⟨2, _⟩ => show q.val = 0 + q.val; omega)]
  rfl

theorem wstack_1 (x : W4) (hs : (⟨4, ![2, 3, 64, 64]⟩ : Shape).Slices ![1, 0, 0, 0] (⟨4, ![1, 3, 64, 64]⟩ : Shape))
    (hc : (⟨4, ![1, 3, 64, 64]⟩ : Shape).ShapeCasts (⟨3, ![3, 64, 64]⟩ : Shape)) :
    shapeCast (⟨3, ![3, 64, 64]⟩ : Shape) (extractStridedSlice (⟨4, ![1, 3, 64, 64]⟩ : Shape) ![1, 0, 0, 0] x hs) hc = sliceW x 1 := by
  funext i
  obtain ⟨e, k, q, rfl⟩ : ∃ (e : Fin 3) (k q : Fin 64), i = ix3 e k q := ⟨i 0, i 1, i 2, eq_ix3 i⟩
  rw [shapeCast_apply _ hc (ix3 e k q) (ix4 (0 : Fin 1) e k q) (by
    rw [Shape.rowMajor_val_four, Shape.rowMajor_val_three]
    show ((0 * 3 + e.val) * 64 + k.val) * 64 + q.val = (e.val * 64 + k.val) * 64 + q.val; omega)]
  rw [extractStridedSlice_apply ![1, 0, 0, 0] x hs (ix4 (0 : Fin 1) e k q) (ix4 (1 : Fin 2) e k q) (fun a => by
    match a with
    | ⟨0, _⟩ => rfl
    | ⟨1, _⟩ => show e.val = 0 + e.val; omega
    | ⟨2, _⟩ => show k.val = 0 + k.val; omega
    | ⟨3, _⟩ => show q.val = 0 + q.val; omega)]
  rfl

theorem bstack_1 (x : B4) (hs : (⟨3, ![2, 3, 64]⟩ : Shape).Slices ![1, 0, 0] (⟨3, ![1, 3, 64]⟩ : Shape))
    (hc : (⟨3, ![1, 3, 64]⟩ : Shape).ShapeCasts (⟨2, ![3, 64]⟩ : Shape)) :
    shapeCast (⟨2, ![3, 64]⟩ : Shape) (extractStridedSlice (⟨3, ![1, 3, 64]⟩ : Shape) ![1, 0, 0] x hs) hc = sliceB x 1 := by
  funext i
  obtain ⟨e, q, rfl⟩ : ∃ (e : Fin 3) (q : Fin 64), i = ix2 e q := ⟨i 0, i 1, eq_ix2 i⟩
  rw [shapeCast_apply _ hc (ix2 e q) (ix3 (0 : Fin 1) e q) (by
    rw [Shape.rowMajor_val_three, Shape.rowMajor_val_two]
    show (0 * 3 + e.val) * 64 + q.val = e.val * 64 + q.val; omega)]
  rw [extractStridedSlice_apply ![1, 0, 0] x hs (ix3 (0 : Fin 1) e q) (ix3 (1 : Fin 2) e q) (fun a => by
    match a with
    | ⟨0, _⟩ => rfl
    | ⟨1, _⟩ => show e.val = 0 + e.val; omega
    | ⟨2, _⟩ => show q.val = 0 + q.val; omega)]
  rfl

end Cert.Spec

end
-- ==== Proof.HostReads0.lean ====
/-
  The first stretch of host operations: what region 0 finds in its operand arrays, as functions of the arguments.

  Three of them are mean-aggregations (gather the source rows along the edges, add them up per destination node,
  divide by the clipped in-degree).  The reference applies the very same chain of operations, so each is stated as
  the reference's aggregation stage applied to the kernel program's arguments and never opened.  The other three
  are round 0's matrices and biases: a slice of the stack, a reshape, and a change of float format that is the
  identity on the extended reals.
-/
import proofs.«119357_j61100204753259_1_alg».proof.Proof.Gen.KernelIdeal.Frame
import proofs.«119357_j61100204753259_1_alg».proof.Proof.Gen.ReferenceIdeal.Read
import proofs.«119357_j61100204753259_1_alg».proof.Proof.Slices
import proofs.«119357_j61100204753259_1_alg».proof.Proof.ArgsKept
import Idealize.ShloMosaic.Lib.StableHlo.Run

set_option maxRecDepth 16384

noncomputable section

namespace Cert.KernelIdeal.Host0

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- Neighbours through edge type 0, of the first node type's features. -/
theorem agg0 (c : Dev nD) : W1 m ρ c (Proc.devRef .tc main_v17)
    = Cert.ReferenceIdeal.Read.val_main_v17 (F := Ideal) (m ((c : Thread nD τ).loc main_arg0)) (m ((c : Thread nD τ).loc main_arg7)) (m ((c : Thread nD τ).loc main_arg8)) := by
  show StableHlo.after hostOps0 (W0 m ρ c) (Proc.devRef .tc main_v17) = _
  after_results_simp
  rfl
/-- Neighbours through edge type 1, of the second node type's features. -/
theorem agg1 (c : Dev nD) : W1 m ρ c (Proc.devRef .tc main_v35)
    = Cert.ReferenceIdeal.Read.val_main_v17 (F := Ideal) (m ((c : Thread nD τ).loc main_arg1)) (m ((c : Thread nD τ).loc main_arg9)) (m ((c : Thread nD τ).loc main_arg10)) := by
  show StableHlo.after hostOps0 (W0 m ρ c) (Proc.devRef .tc main_v35) = _
  after_results_simp
  rfl
/-- Neighbours through edge type 2, of the first node type's features. -/
theorem agg2 (c : Dev nD) : W1 m ρ c (Proc.devRef .tc main_v53)
    = Cert.ReferenceIdeal.Read.val_main_v17 (F := Ideal) (m ((c : Thread nD τ).loc main_arg0)) (m ((c : Thread nD τ).loc main_arg11)) (m ((c : Thread nD τ).loc main_arg12)) := by
  show StableHlo.after hostOps0 (W0 m ρ c) (Proc.devRef .tc main_v53) = _
  after_results_simp
  rfl

/-- Round 0's neighbour matrices. -/
theorem wn (c : Dev nD) : W1 m ρ c (Proc.devRef .tc main_v56) = Cert.Spec.sliceW (m ((c : Thread nD τ).loc main_arg2)) 0 := by
  show StableHlo.after hostOps0 (W0 m ρ c) (Proc.devRef .tc main_v56) = _
  after_results_simp
  show (fun i => shapeCast S3x64x64 (extractStridedSlice S1x3x64x64 ![0, 0, 0, 0] (m ((c : Thread nD τ).loc main_arg2)) slices_S2x3x64x64_S1x3x64x64_0_0_0_0) shapeCasts_S1x3x64x64_S3x64x64 i) = _
  exact Cert.Spec.wstack_0 (m ((c : Thread nD τ).loc main_arg2)) slices_S2x3x64x64_S1x3x64x64_0_0_0_0 shapeCasts_S1x3x64x64_S3x64x64
/-- Round 0's self matrices. -/
theorem wr (c : Dev nD) : W1 m ρ c (Proc.devRef .tc main_v59) = Cert.Spec.sliceW (m ((c : Thread nD τ).loc main_arg3)) 0 := by
  show StableHlo.after hostOps0 (W0 m ρ c) (Proc.devRef .tc main_v59) = _
  after_results_simp
  show (fun i => shapeCast S3x64x64 (extractStridedSlice S1x3x64x64 ![0, 0, 0, 0] (m ((c : Thread nD τ).loc main_arg3)) slices_S2x3x64x64_S1x3x64x64_0_0_0_0) shapeCasts_S1x3x64x64_S3x64x64 i) = _
  exact Cert.Spec.wstack_0 (m ((c : Thread nD τ).loc main_arg3)) slices_S2x3x64x64_S1x3x64x64_0_0_0_0 shapeCasts_S1x3x64x64_S3x64x64
/-- Round 0's biases. -/
theorem bias (c : Dev nD) : W1 m ρ c (Proc.devRef .tc main_v61) = Cert.Spec.sliceB (m ((c : Thread nD τ).loc main_arg4)) 0 := by
  show StableHlo.after hostOps0 (W0 m ρ c) (Proc.devRef .tc main_v61) = _
  after_results_simp
  exact Cert.Spec.bstack_0 _ _ _

end Cert.KernelIdeal.Host0

end
-- ==== Proof.HostReads1.lean ====
/-
  The second stretch of host operations: what region 1 finds in its operand arrays, as functions of region 0's
  two result arrays and of the arguments.  The same three mean-aggregations, now of the first round's new features,
  and round 1's matrices and biases out of the stacks.
-/
import proofs.«119357_j61100204753259_1_alg».proof.Proof.Gen.KernelIdeal.Frame
import proofs.«119357_j61100204753259_1_alg».proof.Proof.Gen.ReferenceIdeal.Read
import proofs.«119357_j61100204753259_1_alg».proof.Proof.Slices
import proofs.«119357_j61100204753259_1_alg».proof.Proof.ArgsKept
import Idealize.ShloMosaic.Lib.StableHlo.Run

set_option maxRecDepth 16384

noncomputable section

namespace Cert.KernelIdeal.Host1

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- Neighbours through edge type 0, of the first node type's round-0 features. -/
theorem agg0 (c : Dev nD) : W3 m ρ c (Proc.devRef .tc main_v80)
    = Cert.ReferenceIdeal.Read.val_main_v17 (F := Ideal) (W2 m ρ c (Proc.devRef .tc main_v62_0)) (m ((c : Thread nD τ).loc main_arg7)) (m ((c : Thread nD τ).loc main_arg8)) := by
  show StableHlo.after hostOps1 (W2 m ρ c) (Proc.devRef .tc main_v80) = _
  after_results_simp
  rw [Kept.W2_arg7 m ρ c, Kept.W2_arg8 m ρ c]
  rfl
/-- Neighbours through edge type 1, of the second node type's round-0 features. -/
theorem agg1 (c : Dev nD) : W3 m ρ c (Proc.devRef .tc main_v98)
    = Cert.ReferenceIdeal.Read.val_main_v17 (F := Ideal) (W2 m ρ c (Proc.devRef .tc main_v62_1)) (m ((c : Thread nD τ).loc main_arg9)) (m ((c : Thread nD τ).loc main_arg10)) := by
  show StableHlo.after hostOps1 (W2 m ρ c) (Proc.devRef .tc main_v98) = _
  after_results_simp
  rw [Kept.W2_arg9 m ρ c, Kept.W2_arg10 m ρ c]
  rfl
/-- Neighbours through edge type 2, of the first node type's round-0 features. -/
theorem agg2 (c : Dev nD) : W3 m ρ c (Proc.devRef .tc main_v116)
    = Cert.ReferenceIdeal.Read.val_main_v17 (F := Ideal) (W2 m ρ c (Proc.devRef .tc main_v62_0)) (m ((c : Thread nD τ).loc main_arg11)) (m ((c : Thread nD τ).loc main_arg12)) := by
  show StableHlo.after hostOps1 (W2 m ρ c) (Proc.devRef .tc main_v116) = _
  after_results_simp
  rw [Kept.W2_arg11 m ρ c, Kept.W2_arg12 m ρ c]
  rfl

/-- Round 1's neighbour matrices. -/
theorem wn (c : Dev nD) : W3 m ρ c (Proc.devRef .tc main_v119) = Cert.Spec.sliceW (m ((c : Thread nD τ).loc main_arg2)) 1 := by
  show StableHlo.after hostOps1 (W2 m ρ c) (Proc.devRef .tc main_v119) = _
  after_results_simp
  rw [Kept.W2_arg2 m ρ c]
  show (fun i => shapeCast S3x64x64 (extractStridedSlice S1x3x64x64 ![1, 0, 0, 0] (m ((c : Thread nD τ).loc main_arg2)) slices_S2x3x64x64_S1x3x64x64_1_0_0_0) shapeCasts_S1x3x64x64_S3x64x64 i) = _
  exact Cert.Spec.wstack_1 (m ((c : Thread nD τ).loc main_arg2)) slices_S2x3x64x64_S1x3x64x64_1_0_0_0 shapeCasts_S1x3x64x64_S3x64x64
/-- Round 1's self matrices. -/
theorem wr (c : Dev nD) : W3 m ρ c (Proc.devRef .tc main_v122) = Cert.Spec.sliceW (m ((c : Thread nD τ).loc main_arg3)) 1 := by
  show StableHlo.after hostOps1 (W2 m ρ c) (Proc.devRef .tc main_v122) = _
  after_results_simp
  rw [Kept.W2_arg3 m ρ c]
  show (fun i => shapeCast S3x64x64 (extractStridedSlice S1x3x64x64 ![1, 0, 0, 0] (m ((c : Thread nD τ).loc main_arg3)) slices_S2x3x64x64_S1x3x64x64_1_0_0_0) shapeCasts_S1x3x64x64_S3x64x64 i) = _
  exact Cert.Spec.wstack_1 (m ((c : Thread nD τ).loc main_arg3)) slices_S2x3x64x64_S1x3x64x64_1_0_0_0 shapeCasts_S1x3x64x64_S3x64x64
/-- Round 1's biases. -/
theorem bias (c : Dev nD) : W3 m ρ c (Proc.devRef .tc main_v124) = Cert.Spec.sliceB (m ((c : Thread nD τ).loc main_arg4)) 1 := by
  show StableHlo.after hostOps1 (W2 m ρ c) (Proc.devRef .tc main_v124) = _
  after_results_simp
  rw [Kept.W2_arg4 m ρ c]
  exact Cert.Spec.bstack_1 _ _ _

end Cert.KernelIdeal.Host1

end
-- ==== Proof.SpecBlocks.lean ====
/-
  The layer and head formulas depend on their matrix arguments only through the entries they read: row `p`
  of each feature matrix, column `q` of each weight matrix, entry `q` of each bias.  So a block of rows cut
  out of an array satisfies, at its row `p`, the array's formula at the row the block's `p` sits at.
-/
import proofs.«119357_j61100204753259_1_alg».proof.Proof.Spec

noncomputable section

namespace Cert.Spec

open Idealize.ShloMosaic Idealize.ShloMosaic.ValueIdx

theorem dot64_congr {n N : Nat} (x : Rows n) (X : Rows N) (W W' : W3) (e : Fin 3) (p : Fin n) (P : Fin N) (q : Fin 64)
    (hx : ∀ k : Fin 64, x (ix2 p k) = X (ix2 P k)) (hW : ∀ k : Fin 64, W (ix3 e k q) = W' (ix3 e k q)) :
    dot64 x W e p q = dot64 X W' e P q := by
  unfold dot64
  exact Finset.sum_congr rfl fun k _ => by rw [hx k, hW k]

theorem newB_congr {n N : Nat} (m0 xB : Rows n) (M0 XB : Rows N) (Wn Wr Wn' Wr' : W3) (b b' : B3) (p : Fin n) (P : Fin N) (q : Fin 64)
    (h0 : ∀ k : Fin 64, m0 (ix2 p k) = M0 (ix2 P k)) (hB : ∀ k : Fin 64, xB (ix2 p k) = XB (ix2 P k))
    (hWn : ∀ (e : Fin 3) (k : Fin 64), Wn (ix3 e k q) = Wn' (ix3 e k q)) (hWr : ∀ (e : Fin 3) (k : Fin 64), Wr (ix3 e k q) = Wr' (ix3 e k q))
    (hb : ∀ e : Fin 3, b (ix2 e q) = b' (ix2 e q)) :
    newB m0 xB Wn Wr b p q = newB M0 XB Wn' Wr' b' P q := by
  unfold newB
  rw [dot64_congr m0 M0 Wn Wn' 0 p P q h0 (hWn 0), dot64_congr xB XB Wr Wr' 0 p P q hB (hWr 0), hb 0]

theorem newA_congr {n N : Nat} (m1 m2 xA : Rows n) (M1 M2 XA : Rows N) (Wn Wr Wn' Wr' : W3) (b b' : B3) (p : Fin n) (P : Fin N) (q : Fin 64)
    (h1 : ∀ k : Fin 64, m1 (ix2 p k) = M1 (ix2 P k)) (h2 : ∀ k : Fin 64, m2 (ix2 p k) = M2 (ix2 P k)) (hA : ∀ k : Fin 64, xA (ix2 p k) = XA (ix2 P k))
    (hWn : ∀ (e : Fin 3) (k : Fin 64), Wn (ix3 e k q) = Wn' (ix3 e k q)) (hWr : ∀ (e : Fin 3) (k : Fin 64), Wr (ix3 e k q) = Wr' (ix3 e k q))
    (hb : ∀ e : Fin 3, b (ix2 e q) = b' (ix2 e q)) :
    newA m1 m2 xA Wn Wr b p q = newA M1 M2 XA Wn' Wr' b' P q := by
  unfold newA
  rw [dot64_congr m1 M1 Wn Wn' 1 p P q h1 (hWn 1), dot64_congr xA XA Wr Wr' 1 p P q hA (hWr 1), hb 1,
    dot64_congr m2 M2 Wn Wn' 2 p P q h2 (hWn 2), dot64_congr xA XA Wr Wr' 2 p P q hA (hWr 2), hb 2]

theorem headAt_congr {n N : Nat} (x : Rows n) (X : Rows N) (W W' : W2) (b b' : B1) (p : Fin n) (P : Fin N) (q : Fin 64)
    (hx : ∀ k : Fin 64, x (ix2 p k) = X (ix2 P k)) (hW : ∀ k : Fin 64, W (ix2 k q) = W' (ix2 k q)) (hb : b (ix1 q) = b' (ix1 q)) :
    headAt x W b p q = headAt X W' b' P q := by
  unfold headAt
  rw [Finset.sum_congr rfl fun k _ => by rw [hx k, hW k], hb]

end Cert.Spec

end
-- ==== Proof.Region0.lean ====
/-
  Region 0 (one round's combine kernel over a grid of 20 row blocks of 5000 rows): what its two result arrays hold
  when the region ends, as functions of the arrays the region finds at its entry.

  Point `t` of the grid reads rows `5000·t … 5000·t + 4999` of the five feature matrices and the whole of the three
  weight and bias stacks, and writes back the same rows of the two results.  So the block a point writes back is
  the restriction to those rows of ONE function of the entry arrays — the round's formula — and, the twenty blocks
  tiling the 100000 rows, the result arrays end holding that function.
-/
import proofs.«119357_j61100204753259_1_alg».proof.Proof.Gen.KernelIdeal.Frame
import proofs.«119357_j61100204753259_1_alg».proof.Proof.SpecBlocks
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The index maps over the grid: a row window's block index is the point on the row axis and 0 on the column
    axis; the weight and bias windows sit at block 0 on every axis. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem t_lt (t : Fin cfg0.N) : t.val < 20 := lt_of_lt_of_eq t.isLt N_0

/-- The array row a block's row sits at. -/
abbrev rowOf (t : Fin cfg0.N) (p : Fin 5000) : Fin 100000 := ⟨t.val * 5000 + p.val, by have := t_lt t; have := p.isLt; omega⟩

/-- Window 0's block at point `t` is rows `5000·t …` of its array. -/
theorem iblk_0 (c : Dev nD) (t : Fin cfg0.N) (p : Fin 5000) (k : Fin 64) :
    iblk0 V c 0 t (ix2 p k) = (V c main_arg0 : Cert.Spec.Rows 100000) (ix2 (rowOf t p) k) := by
  obtain ⟨e0, e1, e2, e3, e4, e5, e6, e7, e8, e9⟩ := idx_facts t
  show V c main_arg0 (((cfg0.win 0).blk t).view.emb (ix2 p k)) = V c main_arg0 (ix2 (rowOf t p) k)
  refine congrArg (V c main_arg0) ?_
  funext a; apply Fin.ext
  match a with
  | ⟨0, _⟩ => show win0_0.index t (0 : Fin 2) * 5000 + 1 * p.val = t.val * 5000 + p.val; have := e0.1; omega
  | ⟨1, _⟩ => show win0_0.index t (1 : Fin 2) * 64 + 1 * k.val = k.val; have := e0.2; omega
/-- Window 1's block at point `t` is rows `5000·t …` of its array. -/
theorem iblk_1 (c : Dev nD) (t : Fin cfg0.N) (p : Fin 5000) (k : Fin 64) :
    iblk0 V c 1 t (ix2 p k) = (V c main_arg1 : Cert.Spec.Rows 100000) (ix2 (rowOf t p) k) := by
  obtain ⟨e0, e1, e2, e3, e4, e5, e6, e7, e8, e9⟩ := idx_facts t
  show V c main_arg1 (((cfg0.win 1).blk t).view.emb (ix2 p k)) = V c main_arg1 (ix2 (rowOf t p) k)
  refine congrArg (V c main_arg1) ?_
  funext a; apply Fin.ext
  match a with
  | ⟨0, _⟩ => show win0_1.index t (0 : Fin 2) * 5000 + 1 * p.val = t.val * 5000 + p.val; have := e1.1; omega
  | ⟨1, _⟩ => show win0_1.index t (1 : Fin 2) * 64 + 1 * k.val = k.val; have := e1.2; omega
/-- Window 2's block at point `t` is rows `5000·t …` of its array. -/
theorem iblk_2 (c : Dev nD) (t : Fin cfg0.N) (p : Fin 5000) (k : Fin 64) :
    iblk0 V c 2 t (ix2 p k) = (V c main_v17 : Cert.Spec.Rows 100000) (ix2 (rowOf t p) k) := by
  obtain ⟨e0, e1, e2, e3, e4, e5, e6, e7, e8, e9⟩ := idx_facts t
  show V c main_v17 (((cfg0.win 2).blk t).view.emb (ix2 p k)) = V c main_v17 (ix2 (rowOf t p) k)
  refine congrArg (V c main_v17) ?_
  funext a; apply Fin.ext
  match a with
  | ⟨0, _⟩ => show win0_2.index t (0 : Fin 2) * 5000 + 1 * p.val = t.val * 5000 + p.val; have := e2.1; omega
  | ⟨1, _⟩ => show win0_2.index t (1 : Fin 2) * 64 + 1 * k.val = k.val; have := e2.2; omega
/-- Window 3's block at point `t` is rows `5000·t …` of its array. -/
theorem iblk_3 (c : Dev nD) (t : Fin cfg0.N) (p : Fin 5000) (k : Fin 64) :
    iblk0 V c 3 t (ix2 p k) = (V c main_v35 : Cert.Spec.Rows 100000) (ix2 (rowOf t p) k) := by
  obtain ⟨e0, e1, e2, e3, e4, e5, e6, e7, e8, e9⟩ := idx_facts t
  show V c main_v35 (((cfg0.win 3).blk t).view.emb (ix2 p k)) = V c main_v35 (ix2 (rowOf t p) k)
  refine congrArg (V c main_v35) ?_
  funext a; apply Fin.ext
  match a with
  | ⟨0, _⟩ => show win0_3.index t (0 : Fin 2) * 5000 + 1 * p.val = t.val * 5000 + p.val; have := e3.1; omega
  | ⟨1, _⟩ => show win0_3.index t (1 : Fin 2) * 64 + 1 * k.val = k.val; have := e3.2; omega
/-- Window 4's block at point `t` is rows `5000·t …` of its array. -/
theorem iblk_4 (c : Dev nD) (t : Fin cfg0.N) (p : Fin 5000) (k : Fin 64) :
    iblk0 V c 4 t (ix2 p k) = (V c main_v53 : Cert.Spec.Rows 100000) (ix2 (rowOf t p) k) := by
  obtain ⟨e0, e1, e2, e3, e4, e5, e6, e7, e8, e9⟩ := idx_facts t
  show V c main_v53 (((cfg0.win 4).blk t).view.emb (ix2 p k)) = V c main_v53 (ix2 (rowOf t p) k)
  refine congrArg (V c main_v53) ?_
  funext a; apply Fin.ext
  match a with
  | ⟨0, _⟩ => show win0_4.index t (0 : Fin 2) * 5000 + 1 * p.val = t.val * 5000 + p.val; have := e4.1; omega
  | ⟨1, _⟩ => show win0_4.index t (1 : Fin 2) * 64 + 1 * k.val = k.val; have := e4.2; omega
/-- The weight windows' block is the whole stack at every point. -/
theorem iblk_5 (c : Dev nD) (t : Fin cfg0.N) (e : Fin 3) (k q : Fin 64) :
    iblk0 V c 5 t (ix3 e k q) = (V c main_v56 : Cert.Spec.W3) (ix3 e k q) := by
  obtain ⟨e0, e1, e2, e3, e4, e5, e6, e7, e8, e9⟩ := idx_facts t
  show V c main_v56 (((cfg0.win 5).blk t).view.emb (ix3 e k q)) = V c main_v56 (ix3 e k q)
  refine congrArg (V c main_v56) ?_
  funext a; apply Fin.ext
  match a with
  | ⟨0, _⟩ => show win0_5.index t (0 : Fin 3) * 3 + 1 * e.val = e.val; have := e5.1; omega
  | ⟨1, _⟩ => show win0_5.index t (1 : Fin 3) * 64 + 1 * k.val = k.val; have := e5.2.1; omega
  | ⟨2, _⟩ => show win0_5.index t (2 : Fin 3) * 64 + 1 * q.val = q.val; have := e5.2.2; omega
theorem iblk_6 (c : Dev nD) (t : Fin cfg0.N) (e : Fin 3) (k q : Fin 64) :
    iblk0 V c 6 t (ix3 e k q) = (V c main_v59 : Cert.Spec.W3) (ix3 e k q) := by
  obtain ⟨e0, e1, e2, e3, e4, e5, e6, e7, e8, e9⟩ := idx_facts t
  show V c main_v59 (((cfg0.win 6).blk t).view.emb (ix3 e k q)) = V c main_v59 (ix3 e k q)
  refine congrArg (V c main_v59) ?_
  funext a; apply Fin.ext
  match a with
  | ⟨0, _⟩ => show win0_6.index t (0 : Fin 3) * 3 + 1 * e.val = e.val; have := e6.1; omega
  | ⟨1, _⟩ => show win0_6.index t (1 : Fin 3) * 64 + 1 * k.val = k.val; have := e6.2.1; omega
  | ⟨2, _⟩ => show win0_6.index t (2 : Fin 3) * 64 + 1 * q.val = q.val; have := e6.2.2; omega
/-- The bias window's block is the whole stack at every point. -/
theorem iblk_7 (c : Dev nD) (t : Fin cfg0.N) (e : Fin 3) (q : Fin 64) :
    iblk0 V c 7 t (ix2 e q) = (V c main_v61 : Cert.Spec.B3) (ix2 e q) := by
  obtain ⟨e0, e1, e2, e3, e4, e5, e6, e7, e8, e9⟩ := idx_facts t
  show V c main_v61 (((cfg0.win 7).blk t).view.emb (ix2 e q)) = V c main_v61 (ix2 e q)
  refine congrArg (V c main_v61) ?_
  funext a; apply Fin.ext
  match a with
  | ⟨0, _⟩ => show win0_7.index t (0 : Fin 2) * 3 + 1 * e.val = e.val; have := e7.1; omega
  | ⟨1, _⟩ => show win0_7.index t (1 : Fin 2) * 64 + 1 * q.val = q.val; have := e7.2; omega

/-- The first node type's new features as one function of the entry arrays. -/
def newA (c : Dev nD) : Cert.Spec.Rows 100000 := fun i =>
  Cert.Spec.newA (V c main_v35 : Cert.Spec.Rows 100000) (V c main_v53 : Cert.Spec.Rows 100000) (V c main_arg0 : Cert.Spec.Rows 100000)
    (V c main_v56 : Cert.Spec.W3) (V c main_v59 : Cert.Spec.W3) (V c main_v61 : Cert.Spec.B3) ⟨(i 0).val, (i 0).isLt⟩ ⟨(i 1).val, (i 1).isLt⟩
/-- The second node type's new features as one function of the entry arrays. -/
def newB (c : Dev nD) : Cert.Spec.Rows 100000 := fun i =>
  Cert.Spec.newB (V c main_v17 : Cert.Spec.Rows 100000) (V c main_arg1 : Cert.Spec.Rows 100000)
    (V c main_v56 : Cert.Spec.W3) (V c main_v59 : Cert.Spec.W3) (V c main_v61 : Cert.Spec.B3) ⟨(i 0).val, (i 0).isLt⟩ ⟨(i 1).val, (i 1).isLt⟩

/-- The block value facts this module is stated over: what the kernel body leaves in each output block, at an entry. -/
abbrev BodyA : Prop := ∀ (x0 x1 x2 x3 x4 : Vec Ideal S5000x64 .f32) (x5 x6 : Vec Ideal S3x64x64 .bf16) (x7 : Vec Ideal S3x64 .f32) (p : Fin 5000) (q : Fin 64),
    out0_8 (F := Ideal) x0 x1 x2 x3 x4 x5 x6 x7 (ix2 p q) = Cert.Spec.newA x3 x4 x0 x5 x6 x7 p q
abbrev BodyB : Prop := ∀ (x0 x1 x2 x3 x4 : Vec Ideal S5000x64 .f32) (x5 x6 : Vec Ideal S3x64x64 .bf16) (x7 : Vec Ideal S3x64 .f32) (p : Fin 5000) (q : Fin 64),
    out0_9 (F := Ideal) x0 x1 x2 x3 x4 x5 x6 x7 (ix2 p q) = Cert.Spec.newB x2 x1 x5 x6 x7 p q

/-- What point `t` writes back to the first result is rows `5000·t …` of `newA`. -/
theorem flushed_8 (hA : BodyA) (c : Dev nD) (t : Fin cfg0.N) :
    (dat0 V c).flushed 8 t = ((cfg0.win 8).blk t).view.read (Elt Ideal) (newA V c) := by
  show (cfg0.win 8).cut (grid0.coords t) ((dat0 V c).after 8 t) = _
  rw [after0_8]
  obtain ⟨e0, e1, e2, e3, e4, e5, e6, e7, e8, e9⟩ := idx_facts t
  funext j
  obtain ⟨p, q, rfl⟩ : ∃ (p : Fin 5000) (q : Fin 64), j = ix2 p q := ⟨j 0, j 1, eq_ix2 j⟩
  have hemb : ((cfg0.win 8).blk t).view.emb (ix2 p q) = (ix2 (rowOf t p) q : S100000x64.Idx) := by
    funext a; apply Fin.ext
    match a with
    | ⟨0, _⟩ => show win0_8.index t (0 : Fin 2) * 5000 + 1 * p.val = t.val * 5000 + p.val; have := e8.1; omega
    | ⟨1, _⟩ => show win0_8.index t (1 : Fin 2) * 64 + 1 * q.val = q.val; have := e8.2; omega
  show out0_8 (iblk0 V c 0 t) (iblk0 V c 1 t) (iblk0 V c 2 t) (iblk0 V c 3 t) (iblk0 V c 4 t) (iblk0 V c 5 t) (iblk0 V c 6 t) (iblk0 V c 7 t) (ix2 p q)
    = newA V c (((cfg0.win 8).blk t).view.emb (ix2 p q))
  rw [hemb]
  refine (hA _ _ _ _ _ _ _ _ p q).trans ?_
  unfold newA
  exact Cert.Spec.newA_congr _ _ _ _ _ _ _ _ _ _ _ _ p (rowOf t p) q
    (fun k => iblk_3 V c t p k) (fun k => iblk_4 V c t p k) (fun k => iblk_0 V c t p k)
    (fun e k => iblk_5 V c t e k q) (fun e k => iblk_6 V c t e k q) (fun e => iblk_7 V c t e q)

/-- What point `t` writes back to the second result is rows `5000·t …` of `newB`. -/
theorem flushed_9 (hB : BodyB) (c : Dev nD) (t : Fin cfg0.N) :
    (dat0 V c).flushed 9 t = ((cfg0.win 9).blk t).view.read (Elt Ideal) (newB V c) := by
  show (cfg0.win 9).cut (grid0.coords t) ((dat0 V c).after 9 t) = _
  rw [after0_9]
  obtain ⟨e0, e1, e2, e3, e4, e5, e6, e7, e8, e9⟩ := idx_facts t
  funext j
  obtain ⟨p, q, rfl⟩ : ∃ (p : Fin 5000) (q : Fin 64), j = ix2 p q := ⟨j 0, j 1, eq_ix2 j⟩
  have hemb : ((cfg0.win 9).blk t).view.emb (ix2 p q) = (ix2 (rowOf t p) q : S100000x64.Idx) := by
    funext a; apply Fin.ext
    match a with
    | ⟨0, _⟩ => show win0_9.index t (0 : Fin 2) * 5000 + 1 * p.val = t.val * 5000 + p.val; have := e9.1; omega
    | ⟨1, _⟩ => show win0_9.index t (1 : Fin 2) * 64 + 1 * q.val = q.val; have := e9.2; omega
  show out0_9 (iblk0 V c 0 t) (iblk0 V c 1 t) (iblk0 V c 2 t) (iblk0 V c 3 t) (iblk0 V c 4 t) (iblk0 V c 5 t) (iblk0 V c 6 t) (iblk0 V c 7 t) (ix2 p q)
    = newB V c (((cfg0.win 9).blk t).view.emb (ix2 p q))
  rw [hemb]
  refine (hB _ _ _ _ _ _ _ _ p q).trans ?_
  unfold newB
  exact Cert.Spec.newB_congr _ _ _ _ _ _ _ _ _ _ p (rowOf t p) q
    (fun k => iblk_2 V c t p k) (fun k => iblk_1 V c t p k)
    (fun e k => iblk_5 V c t e k q) (fun e k => iblk_6 V c t e k q) (fun e => iblk_7 V c t e q)

/-- An index of a result array is in point `t`'s block iff its row is among the block's 5000 and its column among the 64. -/
theorem mem_blk_8 (t : Fin cfg0.N) (i : S100000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v62_0).slice (win0_8.rect t)).set ↔ _
  rw [View.set_slice_whole, Rect.mem_set_unit]
  exact Iff.rfl
theorem mem_blk_9 (t : Fin cfg0.N) (i : S100000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v62_1).slice (win0_9.rect t)).set ↔ _
  rw [View.set_slice_whole, Rect.mem_set_unit]
  exact Iff.rfl

/-- Every row of a result array is in the block of the point `row / 5000`. -/
theorem cover_8 (i : S100000x64.Idx) : ∃ t : Fin cfg0.N, (cfg0.win 8).flush t = true ∧ i ∈ ((cfg0.win 8).blk t).view.set := by
  have hi0 : (i 0).val < 100000 := (i 0).isLt
  have hi1 : (i 1).val < 64 := (i 1).isLt
  let t : Fin cfg0.N := ⟨(i 0).val / 5000, lt_of_lt_of_eq (by omega : (i 0).val / 5000 < 20) N_0.symm⟩
  obtain ⟨e0, e1, e2, e3, e4, e5, e6, e7, e8, e9⟩ := idx_facts t
  refine ⟨t, flush0_8 t, ?_⟩
  rw [mem_blk_8]
  have ht : t.val = (i 0).val / 5000 := rfl
  intro a
  match a with
  | ⟨0, _⟩ => show win0_8.index t (0 : Fin 2) * 5000 ≤ (i 0).val ∧ (i 0).val < win0_8.index t (0 : Fin 2) * 5000 + 5000; have := e8.1; omega
  | ⟨1, _⟩ => show win0_8.index t (1 : Fin 2) * 64 ≤ (i 1).val ∧ (i 1).val < win0_8.index t (1 : Fin 2) * 64 + 64; have := e8.2; omega
theorem cover_9 (i : S100000x64.Idx) : ∃ t : Fin cfg0.N, (cfg0.win 9).flush t = true ∧ i ∈ ((cfg0.win 9).blk t).view.set := by
  have hi0 : (i 0).val < 100000 := (i 0).isLt
  have hi1 : (i 1).val < 64 := (i 1).isLt
  let t : Fin cfg0.N := ⟨(i 0).val / 5000, lt_of_lt_of_eq (by omega : (i 0).val / 5000 < 20) N_0.symm⟩
  obtain ⟨e0, e1, e2, e3, e4, e5, e6, e7, e8, e9⟩ := idx_facts t
  refine ⟨t, flush0_9 t, ?_⟩
  rw [mem_blk_9]
  have ht : t.val = (i 0).val / 5000 := rfl
  intro a
  match a with
  | ⟨0, _⟩ => show win0_9.index t (0 : Fin 2) * 5000 ≤ (i 0).val ∧ (i 0).val < win0_9.index t (0 : Fin 2) * 5000 + 5000; have := e9.1; omega
  | ⟨1, _⟩ => show win0_9.index t (1 : Fin 2) * 64 ≤ (i 1).val ∧ (i 1).val < win0_9.index t (1 : Fin 2) * 64 + 64; have := e9.2; omega

/-- The first result array when the region ends. -/
theorem arr_8 (hA : BodyA) (c : Dev nD) : (dat0 V c).arrAt 8 cfg0.N = newA V c :=
  (dat0 V c).arrAt_eq_of_cover 8 (newA V c) (fun t _ => flushed_8 V hA c t) cover_8
/-- The second result array when the region ends. -/
theorem arr_9 (hB : BodyB) (c : Dev nD) : (dat0 V c).arrAt 9 cfg0.N = newB V c :=
  (dat0 V c).arrAt_eq_of_cover 9 (newB V c) (fun t _ => flushed_9 V hB c t) cover_9

end Cert.KernelIdeal.Region0

end
-- ==== Proof.Region1.lean ====
/-
  Region 1 (one round's combine kernel over a grid of 20 row blocks of 5000 rows): what its two result arrays hold
  when the region ends, as functions of the arrays the region finds at its entry.

  Point `t` of the grid reads rows `5000·t … 5000·t + 4999` of the five feature matrices and the whole of the three
  weight and bias stacks, and writes back the same rows of the two results.  So the block a point writes back is
  the restriction to those rows of ONE function of the entry arrays — the round's formula — and, the twenty blocks
  tiling the 100000 rows, the result arrays end holding that function.
-/
import proofs.«119357_j61100204753259_1_alg».proof.Proof.Gen.KernelIdeal.Frame
import proofs.«119357_j61100204753259_1_alg».proof.Proof.SpecBlocks
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The index maps over the grid: a row window's block index is the point on the row axis and 0 on the column
    axis; the weight and bias windows sit at block 0 on every axis. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 3) = 0 ∧ win1_5.index t (1 : Fin 3) = 0 ∧ win1_5.index t (2 : Fin 3) = 0)
    ∧ (win1_6.index t (0 : Fin 3) = 0 ∧ win1_6.index t (1 : Fin 3) = 0 ∧ win1_6.index t (2 : Fin 3) = 0)
    ∧ (win1_7.index t (0 : Fin 2) = 0 ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0) :=
  (by decide +kernel : ∀ t : Fin grid1.N, _)

theorem t_lt (t : Fin cfg1.N) : t.val < 20 := lt_of_lt_of_eq t.isLt N_1

/-- The array row a block's row sits at. -/
abbrev rowOf (t : Fin cfg1.N) (p : Fin 5000) : Fin 100000 := ⟨t.val * 5000 + p.val, by have := t_lt t; have := p.isLt; omega⟩

/-- Window 0's block at point `t` is rows `5000·t …` of its array. -/
theorem iblk_0 (c : Dev nD) (t : Fin cfg1.N) (p : Fin 5000) (k : Fin 64) :
    iblk1 V c 0 t (ix2 p k) = (V c main_v62_0 : Cert.Spec.Rows 100000) (ix2 (rowOf t p) k) := by
  obtain ⟨e0, e1, e2, e3, e4, e5, e6, e7, e8, e9⟩ := idx_facts t
  show V c main_v62_0 (((cfg1.win 0).blk t).view.emb (ix2 p k)) = V c main_v62_0 (ix2 (rowOf t p) k)
  refine congrArg (V c main_v62_0) ?_
  funext a; apply Fin.ext
  match a with
  | ⟨0, _⟩ => show win1_0.index t (0 : Fin 2) * 5000 + 1 * p.val = t.val * 5000 + p.val; have := e0.1; omega
  | ⟨1, _⟩ => show win1_0.index t (1 : Fin 2) * 64 + 1 * k.val = k.val; have := e0.2; omega
/-- Window 1's block at point `t` is rows `5000·t …` of its array. -/
theorem iblk_1 (c : Dev nD) (t : Fin cfg1.N) (p : Fin 5000) (k : Fin 64) :
    iblk1 V c 1 t (ix2 p k) = (V c main_v62_1 : Cert.Spec.Rows 100000) (ix2 (rowOf t p) k) := by
  obtain ⟨e0, e1, e2, e3, e4, e5, e6, e7, e8, e9⟩ := idx_facts t
  show V c main_v62_1 (((cfg1.win 1).blk t).view.emb (ix2 p k)) = V c main_v62_1 (ix2 (rowOf t p) k)
  refine congrArg (V c main_v62_1) ?_
  funext a; apply Fin.ext
  match a with
  | ⟨0, _⟩ => show win1_1.index t (0 : Fin 2) * 5000 + 1 * p.val = t.val * 5000 + p.val; have := e1.1; omega
  | ⟨1, _⟩ => show win1_1.index t (1 : Fin 2) * 64 + 1 * k.val = k.val; have := e1.2; omega
/-- Window 2's block at point `t` is rows `5000·t …` of its array. -/
theorem iblk_2 (c : Dev nD) (t : Fin cfg1.N) (p : Fin 5000) (k : Fin 64) :
    iblk1 V c 2 t (ix2 p k) = (V c main_v80 : Cert.Spec.Rows 100000) (ix2 (rowOf t p) k) := by
  obtain ⟨e0, e1, e2, e3, e4, e5, e6, e7, e8, e9⟩ := idx_facts t
  show V c main_v80 (((cfg1.win 2).blk t).view.emb (ix2 p k)) = V c main_v80 (ix2 (rowOf t p) k)
  refine congrArg (V c main_v80) ?_
  funext a; apply Fin.ext
  match a with
  | ⟨0, _⟩ => show win1_2.index t (0 : Fin 2) * 5000 + 1 * p.val = t.val * 5000 + p.val; have := e2.1; omega
  | ⟨1, _⟩ => show win1_2.index t (1 : Fin 2) * 64 + 1 * k.val = k.val; have := e2.2; omega
/-- Window 3's block at point `t` is rows `5000·t …` of its array. -/
theorem iblk_3 (c : Dev nD) (t : Fin cfg1.N) (p : Fin 5000) (k : Fin 64) :
    iblk1 V c 3 t (ix2 p k) = (V c main_v98 : Cert.Spec.Rows 100000) (ix2 (rowOf t p) k) := by
  obtain ⟨e0, e1, e2, e3, e4, e5, e6, e7, e8, e9⟩ := idx_facts t
  show V c main_v98 (((cfg1.win 3).blk t).view.emb (ix2 p k)) = V c main_v98 (ix2 (rowOf t p) k)
  refine congrArg (V c main_v98) ?_
  funext a; apply Fin.ext
  match a with
  | ⟨0, _⟩ => show win1_3.index t (0 : Fin 2) * 5000 + 1 * p.val = t.val * 5000 + p.val; have := e3.1; omega
  | ⟨1, _⟩ => show win1_3.index t (1 : Fin 2) * 64 + 1 * k.val = k.val; have := e3.2; omega
/-- Window 4's block at point `t` is rows `5000·t …` of its array. -/
theorem iblk_4 (c : Dev nD) (t : Fin cfg1.N) (p : Fin 5000) (k : Fin 64) :
    iblk1 V c 4 t (ix2 p k) = (V c main_v116 : Cert.Spec.Rows 100000) (ix2 (rowOf t p) k) := by
  obtain ⟨e0, e1, e2, e3, e4, e5, e6, e7, e8, e9⟩ := idx_facts t
  show V c main_v116 (((cfg1.win 4).blk t).view.emb (ix2 p k)) = V c main_v116 (ix2 (rowOf t p) k)
  refine congrArg (V c main_v116) ?_
  funext a; apply Fin.ext
  match a with
  | ⟨0, _⟩ => show win1_4.index t (0 : Fin 2) * 5000 + 1 * p.val = t.val * 5000 + p.val; have := e4.1; omega
  | ⟨1, _⟩ => show win1_4.index t (1 : Fin 2) * 64 + 1 * k.val = k.val; have := e4.2; omega
/-- The weight windows' block is the whole stack at every point. -/
theorem iblk_5 (c : Dev nD) (t : Fin cfg1.N) (e : Fin 3) (k q : Fin 64) :
    iblk1 V c 5 t (ix3 e k q) = (V c main_v119 : Cert.Spec.W3) (ix3 e k q) := by
  obtain ⟨e0, e1, e2, e3, e4, e5, e6, e7, e8, e9⟩ := idx_facts t
  show V c main_v119 (((cfg1.win 5).blk t).view.emb (ix3 e k q)) = V c main_v119 (ix3 e k q)
  refine congrArg (V c main_v119) ?_
  funext a; apply Fin.ext
  match a with
  | ⟨0, _⟩ => show win1_5.index t (0 : Fin 3) * 3 + 1 * e.val = e.val; have := e5.1; omega
  | ⟨1, _⟩ => show win1_5.index t (1 : Fin 3) * 64 + 1 * k.val = k.val; have := e5.2.1; omega
  | ⟨2, _⟩ => show win1_5.index t (2 : Fin 3) * 64 + 1 * q.val = q.val; have := e5.2.2; omega
theorem iblk_6 (c : Dev nD) (t : Fin cfg1.N) (e : Fin 3) (k q : Fin 64) :
    iblk1 V c 6 t (ix3 e k q) = (V c main_v122 : Cert.Spec.W3) (ix3 e k q) := by
  obtain ⟨e0, e1, e2, e3, e4, e5, e6, e7, e8, e9⟩ := idx_facts t
  show V c main_v122 (((cfg1.win 6).blk t).view.emb (ix3 e k q)) = V c main_v122 (ix3 e k q)
  refine congrArg (V c main_v122) ?_
  funext a; apply Fin.ext
  match a with
  | ⟨0, _⟩ => show win1_6.index t (0 : Fin 3) * 3 + 1 * e.val = e.val; have := e6.1; omega
  | ⟨1, _⟩ => show win1_6.index t (1 : Fin 3) * 64 + 1 * k.val = k.val; have := e6.2.1; omega
  | ⟨2, _⟩ => show win1_6.index t (2 : Fin 3) * 64 + 1 * q.val = q.val; have := e6.2.2; omega
/-- The bias window's block is the whole stack at every point. -/
theorem iblk_7 (c : Dev nD) (t : Fin cfg1.N) (e : Fin 3) (q : Fin 64) :
    iblk1 V c 7 t (ix2 e q) = (V c main_v124 : Cert.Spec.B3) (ix2 e q) := by
  obtain ⟨e0, e1, e2, e3, e4, e5, e6, e7, e8, e9⟩ := idx_facts t
  show V c main_v124 (((cfg1.win 7).blk t).view.emb (ix2 e q)) = V c main_v124 (ix2 e q)
  refine congrArg (V c main_v124) ?_
  funext a; apply Fin.ext
  match a with
  | ⟨0, _⟩ => show win1_7.index t (0 : Fin 2) * 3 + 1 * e.val = e.val; have := e7.1; omega
  | ⟨1, _⟩ => show win1_7.index t (1 : Fin 2) * 64 + 1 * q.val = q.val; have := e7.2; omega

/-- The first node type's new features as one function of the entry arrays. -/
def newA (c : Dev nD) : Cert.Spec.Rows 100000 := fun i =>
  Cert.Spec.newA (V c main_v98 : Cert.Spec.Rows 100000) (V c main_v116 : Cert.Spec.Rows 100000) (V c main_v62_0 : Cert.Spec.Rows 100000)
    (V c main_v119 : Cert.Spec.W3) (V c main_v122 : Cert.Spec.W3) (V c main_v124 : Cert.Spec.B3) ⟨(i 0).val, (i 0).isLt⟩ ⟨(i 1).val, (i 1).isLt⟩
/-- The second node type's new features as one function of the entry arrays. -/
def newB (c : Dev nD) : Cert.Spec.Rows 100000 := fun i =>
  Cert.Spec.newB (V c main_v80 : Cert.Spec.Rows 100000) (V c main_v62_1 : Cert.Spec.Rows 100000)
    (V c main_v119 : Cert.Spec.W3) (V c main_v122 : Cert.Spec.W3) (V c main_v124 : Cert.Spec.B3) ⟨(i 0).val, (i 0).isLt⟩ ⟨(i 1).val, (i 1).isLt⟩

/-- The block value facts this module is stated over: what the kernel body leaves in each output block, at an entry. -/
abbrev BodyA : Prop := ∀ (x0 x1 x2 x3 x4 : Vec Ideal S5000x64 .f32) (x5 x6 : Vec Ideal S3x64x64 .bf16) (x7 : Vec Ideal S3x64 .f32) (p : Fin 5000) (q : Fin 64),
    out1_8 (F := Ideal) x0 x1 x2 x3 x4 x5 x6 x7 (ix2 p q) = Cert.Spec.newA x3 x4 x0 x5 x6 x7 p q
abbrev BodyB : Prop := ∀ (x0 x1 x2 x3 x4 : Vec Ideal S5000x64 .f32) (x5 x6 : Vec Ideal S3x64x64 .bf16) (x7 : Vec Ideal S3x64 .f32) (p : Fin 5000) (q : Fin 64),
    out1_9 (F := Ideal) x0 x1 x2 x3 x4 x5 x6 x7 (ix2 p q) = Cert.Spec.newB x2 x1 x5 x6 x7 p q

/-- What point `t` writes back to the first result is rows `5000·t …` of `newA`. -/
theorem flushed_8 (hA : BodyA) (c : Dev nD) (t : Fin cfg1.N) :
    (dat1 V c).flushed 8 t = ((cfg1.win 8).blk t).view.read (Elt Ideal) (newA V c) := by
  show (cfg1.win 8).cut (grid1.coords t) ((dat1 V c).after 8 t) = _
  rw [after1_8]
  obtain ⟨e0, e1, e2, e3, e4, e5, e6, e7, e8, e9⟩ := idx_facts t
  funext j
  obtain ⟨p, q, rfl⟩ : ∃ (p : Fin 5000) (q : Fin 64), j = ix2 p q := ⟨j 0, j 1, eq_ix2 j⟩
  have hemb : ((cfg1.win 8).blk t).view.emb (ix2 p q) = (ix2 (rowOf t p) q : S100000x64.Idx) := by
    funext a; apply Fin.ext
    match a with
    | ⟨0, _⟩ => show win1_8.index t (0 : Fin 2) * 5000 + 1 * p.val = t.val * 5000 + p.val; have := e8.1; omega
    | ⟨1, _⟩ => show win1_8.index t (1 : Fin 2) * 64 + 1 * q.val = q.val; have := e8.2; omega
  show out1_8 (iblk1 V c 0 t) (iblk1 V c 1 t) (iblk1 V c 2 t) (iblk1 V c 3 t) (iblk1 V c 4 t) (iblk1 V c 5 t) (iblk1 V c 6 t) (iblk1 V c 7 t) (ix2 p q)
    = newA V c (((cfg1.win 8).blk t).view.emb (ix2 p q))
  rw [hemb]
  refine (hA _ _ _ _ _ _ _ _ p q).trans ?_
  unfold newA
  exact Cert.Spec.newA_congr _ _ _ _ _ _ _ _ _ _ _ _ p (rowOf t p) q
    (fun k => iblk_3 V c t p k) (fun k => iblk_4 V c t p k) (fun k => iblk_0 V c t p k)
    (fun e k => iblk_5 V c t e k q) (fun e k => iblk_6 V c t e k q) (fun e => iblk_7 V c t e q)

/-- What point `t` writes back to the second result is rows `5000·t …` of `newB`. -/
theorem flushed_9 (hB : BodyB) (c : Dev nD) (t : Fin cfg1.N) :
    (dat1 V c).flushed 9 t = ((cfg1.win 9).blk t).view.read (Elt Ideal) (newB V c) := by
  show (cfg1.win 9).cut (grid1.coords t) ((dat1 V c).after 9 t) = _
  rw [after1_9]
  obtain ⟨e0, e1, e2, e3, e4, e5, e6, e7, e8, e9⟩ := idx_facts t
  funext j
  obtain ⟨p, q, rfl⟩ : ∃ (p : Fin 5000) (q : Fin 64), j = ix2 p q := ⟨j 0, j 1, eq_ix2 j⟩
  have hemb : ((cfg1.win 9).blk t).view.emb (ix2 p q) = (ix2 (rowOf t p) q : S100000x64.Idx) := by
    funext a; apply Fin.ext
    match a with
    | ⟨0, _⟩ => show win1_9.index t (0 : Fin 2) * 5000 + 1 * p.val = t.val * 5000 + p.val; have := e9.1; omega
    | ⟨1, _⟩ => show win1_9.index t (1 : Fin 2) * 64 + 1 * q.val = q.val; have := e9.2; omega
  show out1_9 (iblk1 V c 0 t) (iblk1 V c 1 t) (iblk1 V c 2 t) (iblk1 V c 3 t) (iblk1 V c 4 t) (iblk1 V c 5 t) (iblk1 V c 6 t) (iblk1 V c 7 t) (ix2 p q)
    = newB V c (((cfg1.win 9).blk t).view.emb (ix2 p q))
  rw [hemb]
  refine (hB _ _ _ _ _ _ _ _ p q).trans ?_
  unfold newB
  exact Cert.Spec.newB_congr _ _ _ _ _ _ _ _ _ _ p (rowOf t p) q
    (fun k => iblk_2 V c t p k) (fun k => iblk_1 V c t p k)
    (fun e k => iblk_5 V c t e k q) (fun e k => iblk_6 V c t e k q) (fun e => iblk_7 V c t e q)

/-- An index of a result array is in point `t`'s block iff its row is among the block's 5000 and its column among the 64. -/
theorem mem_blk_8 (t : Fin cfg1.N) (i : S100000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v125_0).slice (win1_8.rect t)).set ↔ _
  rw [View.set_slice_whole, Rect.mem_set_unit]
  exact Iff.rfl
theorem mem_blk_9 (t : Fin cfg1.N) (i : S100000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v125_1).slice (win1_9.rect t)).set ↔ _
  rw [View.set_slice_whole, Rect.mem_set_unit]
  exact Iff.rfl

/-- Every row of a result array is in the block of the point `row / 5000`. -/
theorem cover_8 (i : S100000x64.Idx) : ∃ t : Fin cfg1.N, (cfg1.win 8).flush t = true ∧ i ∈ ((cfg1.win 8).blk t).view.set := by
  have hi0 : (i 0).val < 100000 := (i 0).isLt
  have hi1 : (i 1).val < 64 := (i 1).isLt
  let t : Fin cfg1.N := ⟨(i 0).val / 5000, lt_of_lt_of_eq (by omega : (i 0).val / 5000 < 20) N_1.symm⟩
  obtain ⟨e0, e1, e2, e3, e4, e5, e6, e7, e8, e9⟩ := idx_facts t
  refine ⟨t, flush1_8 t, ?_⟩
  rw [mem_blk_8]
  have ht : t.val = (i 0).val / 5000 := rfl
  intro a
  match a with
  | ⟨0, _⟩ => show win1_8.index t (0 : Fin 2) * 5000 ≤ (i 0).val ∧ (i 0).val < win1_8.index t (0 : Fin 2) * 5000 + 5000; have := e8.1; omega
  | ⟨1, _⟩ => show win1_8.index t (1 : Fin 2) * 64 ≤ (i 1).val ∧ (i 1).val < win1_8.index t (1 : Fin 2) * 64 + 64; have := e8.2; omega
theorem cover_9 (i : S100000x64.Idx) : ∃ t : Fin cfg1.N, (cfg1.win 9).flush t = true ∧ i ∈ ((cfg1.win 9).blk t).view.set := by
  have hi0 : (i 0).val < 100000 := (i 0).isLt
  have hi1 : (i 1).val < 64 := (i 1).isLt
  let t : Fin cfg1.N := ⟨(i 0).val / 5000, lt_of_lt_of_eq (by omega : (i 0).val / 5000 < 20) N_1.symm⟩
  obtain ⟨e0, e1, e2, e3, e4, e5, e6, e7, e8, e9⟩ := idx_facts t
  refine ⟨t, flush1_9 t, ?_⟩
  rw [mem_blk_9]
  have ht : t.val = (i 0).val / 5000 := rfl
  intro a
  match a with
  | ⟨0, _⟩ => show win1_9.index t (0 : Fin 2) * 5000 ≤ (i 0).val ∧ (i 0).val < win1_9.index t (0 : Fin 2) * 5000 + 5000; have := e9.1; omega
  | ⟨1, _⟩ => show win1_9.index t (1 : Fin 2) * 64 ≤ (i 1).val ∧ (i 1).val < win1_9.index t (1 : Fin 2) * 64 + 64; have := e9.2; omega

/-- The first result array when the region ends. -/
theorem arr_8 (hA : BodyA) (c : Dev nD) : (dat1 V c).arrAt 8 cfg1.N = newA V c :=
  (dat1 V c).arrAt_eq_of_cover 8 (newA V c) (fun t _ => flushed_8 V hA c t) cover_8
/-- The second result array when the region ends. -/
theorem arr_9 (hB : BodyB) (c : Dev nD) : (dat1 V c).arrAt 9 cfg1.N = newB V c :=
  (dat1 V c).arrAt_eq_of_cover 9 (newB V c) (fun t _ => flushed_9 V hB c t) cover_9

end Cert.KernelIdeal.Region1

end
-- ==== Proof.Region2.lean ====
/-
  Region 2 (the head kernel over a grid of 10 row blocks of 20000 rows): what its result array holds when the
  region ends, as a function of the arrays the region finds at its entry.

  Point `t` reads rows `20000·t … 20000·t + 19999` of the stacked feature matrix and the whole of the head's
  matrix and bias, and writes back the same rows of the result: the restriction to those rows of the head's
  formula.  The ten blocks tile the 200000 rows, so the result array ends holding that formula.
-/
import proofs.«119357_j61100204753259_1_alg».proof.Proof.Gen.KernelIdeal.Frame
import proofs.«119357_j61100204753259_1_alg».proof.Proof.SpecBlocks
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The index maps over the grid: the two row windows' block index is the point on the row axis and 0 on the
    column axis; the matrix and the bias sit at block 0. -/
theorem idx_facts : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 1) = 0)
    ∧ (win2_3.index t (0 : Fin 2) = t.val ∧ win2_3.index t (1 : Fin 2) = 0) :=
  (by decide +kernel : ∀ t : Fin grid2.N, _)

theorem t_lt (t : Fin cfg2.N) : t.val < 10 := lt_of_lt_of_eq t.isLt N_2

/-- The array row a block's row sits at. -/
abbrev rowOf (t : Fin cfg2.N) (p : Fin 20000) : Fin 200000 := ⟨t.val * 20000 + p.val, by have := t_lt t; have := p.isLt; omega⟩

/-- The feature window's block at point `t` is rows `20000·t …` of the stacked matrix. -/
theorem iblk_0 (c : Dev nD) (t : Fin cfg2.N) (p : Fin 20000) (k : Fin 64) :
    iblk2 V c 0 t (ix2 p k) = (V c main_v126 : Cert.Spec.Rows 200000) (ix2 (rowOf t p) k) := by
  obtain ⟨e0, e1, e2, e3⟩ := idx_facts t
  show V c main_v126 (((cfg2.win 0).blk t).view.emb (ix2 p k)) = V c main_v126 (ix2 (rowOf t p) k)
  refine congrArg (V c main_v126) ?_
  funext a; apply Fin.ext
  match a with
  | ⟨0, _⟩ => show win2_0.index t (0 : Fin 2) * 20000 + 1 * p.val = t.val * 20000 + p.val; have := e0.1; omega
  | ⟨1, _⟩ => show win2_0.index t (1 : Fin 2) * 64 + 1 * k.val = k.val; have := e0.2; omega
/-- The matrix window's block is the whole matrix at every point. -/
theorem iblk_1 (c : Dev nD) (t : Fin cfg2.N) (k q : Fin 64) :
    iblk2 V c 1 t (ix2 k q) = (V c main_v127 : Cert.Spec.W2) (ix2 k q) := by
  obtain ⟨e0, e1, e2, e3⟩ := idx_facts t
  show V c main_v127 (((cfg2.win 1).blk t).view.emb (ix2 k q)) = V c main_v127 (ix2 k q)
  refine congrArg (V c main_v127) ?_
  funext a; apply Fin.ext
  match a with
  | ⟨0, _⟩ => show win2_1.index t (0 : Fin 2) * 64 + 1 * k.val = k.val; have := e1.1; omega
  | ⟨1, _⟩ => show win2_1.index t (1 : Fin 2) * 64 + 1 * q.val = q.val; have := e1.2; omega
/-- The bias window's block is the whole vector at every point. -/
theorem iblk_2 (c : Dev nD) (t : Fin cfg2.N) (q : Fin 64) :
    iblk2 V c 2 t (ix1 q) = (V c main_arg6 : Cert.Spec.B1) (ix1 q) := by
  obtain ⟨e0, e1, e2, e3⟩ := idx_facts t
  show V c main_arg6 (((cfg2.win 2).blk t).view.emb (ix1 q)) = V c main_arg6 (ix1 q)
  refine congrArg (V c main_arg6) ?_
  funext a; apply Fin.ext
  match a with
  | ⟨0, _⟩ => show win2_2.index t (0 : Fin 1) * 64 + 1 * q.val = q.val; omega

/-- The head's output as one function of the entry arrays. -/
def out (c : Dev nD) : Cert.Spec.Rows 200000 :=
  Cert.Spec.head (V c main_v126 : Cert.Spec.Rows 200000) (V c main_v127 : Cert.Spec.W2) (V c main_arg6 : Cert.Spec.B1)

/-- The block value fact this module is stated over: what the kernel body leaves in its output block, at an entry. -/
abbrev Body : Prop := ∀ (x0 : Vec Ideal S20000x64 .f32) (x1 : Vec Ideal S64x64 .bf16) (x2 : Vec Ideal S64 .f32) (p : Fin 20000) (q : Fin 64),
    out2_3 (F := Ideal) x0 x1 x2 (ix2 p q) = Cert.Spec.headAt x0 x1 x2 p q

/-- What point `t` writes back is rows `20000·t …` of `out`. -/
theorem flushed_3 (h : Body) (c : Dev nD) (t : Fin cfg2.N) :
    (dat2 V c).flushed 3 t = ((cfg2.win 3).blk t).view.read (Elt Ideal) (out V c) := by
  show (cfg2.win 3).cut (grid2.coords t) ((dat2 V c).after 3 t) = _
  rw [after2_3]
  obtain ⟨e0, e1, e2, e3⟩ := idx_facts t
  funext j
  obtain ⟨p, q, rfl⟩ : ∃ (p : Fin 20000) (q : Fin 64), j = ix2 p q := ⟨j 0, j 1, eq_ix2 j⟩
  have hemb : ((cfg2.win 3).blk t).view.emb (ix2 p q) = (ix2 (rowOf t p) q : S200000x64.Idx) := by
    funext a; apply Fin.ext
    match a with
    | ⟨0, _⟩ => show win2_3.index t (0 : Fin 2) * 20000 + 1 * p.val = t.val * 20000 + p.val; have := e3.1; omega
    | ⟨1, _⟩ => show win2_3.index t (1 : Fin 2) * 64 + 1 * q.val = q.val; have := e3.2; omega
  show out2_3 (iblk2 V c 0 t) (iblk2 V c 1 t) (iblk2 V c 2 t) (ix2 p q) = out V c (((cfg2.win 3).blk t).view.emb (ix2 p q))
  rw [hemb]
  refine (h _ _ _ p q).trans ?_
  unfold out Cert.Spec.head
  exact Cert.Spec.headAt_congr _ _ _ _ _ _ p (rowOf t p) q
    (fun k => iblk_0 V c t p k) (fun k => iblk_1 V c t k q) (iblk_2 V c t q)

/-- An index of the result array is in point `t`'s block iff its row is among the block's 20000 and its column among the 64. -/
theorem mem_blk_3 (t : Fin cfg2.N) (i : S200000x64.Idx) :
    i ∈ ((cfg2.win 3).blk t).view.set ↔ ∀ a : Fin 2, win2_3.index t a * S20000x64.size a ≤ (i a).val ∧ (i a).val < win2_3.index t a * S20000x64.size a + S20000x64.size a := by
  show i ∈ ((View.whole main_v128).slice (win2_3.rect t)).set ↔ _
  rw [View.set_slice_whole, Rect.mem_set_unit]
  exact Iff.rfl

/-- Every row of the result array is in the block of the point `row / 20000`. -/
theorem cover_3 (i : S200000x64.Idx) : ∃ t : Fin cfg2.N, (cfg2.win 3).flush t = true ∧ i ∈ ((cfg2.win 3).blk t).view.set := by
  have hi0 : (i 0).val < 200000 := (i 0).isLt
  have hi1 : (i 1).val < 64 := (i 1).isLt
  let t : Fin cfg2.N := ⟨(i 0).val / 20000, lt_of_lt_of_eq (by omega : (i 0).val / 20000 < 10) N_2.symm⟩
  obtain ⟨e0, e1, e2, e3⟩ := idx_facts t
  refine ⟨t, flush2_3 t, ?_⟩
  rw [mem_blk_3]
  have ht : t.val = (i 0).val / 20000 := rfl
  intro a
  match a with
  | ⟨0, _⟩ => show win2_3.index t (0 : Fin 2) * 20000 ≤ (i 0).val ∧ (i 0).val < win2_3.index t (0 : Fin 2) * 20000 + 20000; have := e3.1; omega
  | ⟨1, _⟩ => show win2_3.index t (1 : Fin 2) * 64 ≤ (i 1).val ∧ (i 1).val < win2_3.index t (1 : Fin 2) * 64 + 64; have := e3.2; omega

/-- The result array when the region ends. -/
theorem arr_3 (h : Body) (c : Dev nD) : (dat2 V c).arrAt 3 cfg2.N = out V c :=
  (dat2 V c).arrAt_eq_of_cover 3 (out V c) (fun t _ => flushed_3 V h c t) cover_3

end Cert.KernelIdeal.Region2

end
-- ==== Proof.KernelValue.lean ====
/-
  The idealized kernel program's result array, as a function of the argument arrays: the specification.

  Walking the run's boundaries backwards from the result buffer.  The head region leaves the head's formula of
  what it finds in its three operand arrays.  The last host stretch makes those the two round-1 results stacked,
  the head's matrix (a change of float format: the identity) and the bias argument.  Region 1 leaves round 1's two
  formulas of what IT finds; the second host stretch makes those the mean-aggregations of region 0's results,
  region 0's results themselves, and round 1's slices of the weight stacks; and likewise one round down to the
  arguments.  The mean-aggregation is the reference's stage, applied at each place to the array it aggregates.
-/
import proofs.«119357_j61100204753259_1_alg».proof.Proof.Gen.KernelIdeal.Frame
import proofs.«119357_j61100204753259_1_alg».proof.Proof.Gen.ReferenceIdeal.Read
import proofs.«119357_j61100204753259_1_alg».proof.Proof.Spec
import proofs.«119357_j61100204753259_1_alg».proof.Proof.SpecConcat
import proofs.«119357_j61100204753259_1_alg».proof.Proof.ArgsKept
import proofs.«119357_j61100204753259_1_alg».proof.Proof.HostReads0
import proofs.«119357_j61100204753259_1_alg».proof.Proof.HostReads1
import proofs.«119357_j61100204753259_1_alg».proof.Proof.Region0
import proofs.«119357_j61100204753259_1_alg».proof.Proof.Region1
import proofs.«119357_j61100204753259_1_alg».proof.Proof.Region2
import Idealize.ShloMosaic.Lib.StableHlo.Run

set_option maxRecDepth 16384

noncomputable section

namespace Cert.KernelIdeal.Value

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- The argument arrays, typed as the specification takes them. -/
abbrev xA (c : Dev nD) : Cert.Spec.Rows 100000 := (m ((c : Thread nD τ).loc main_arg0))
abbrev xB (c : Dev nD) : Cert.Spec.Rows 100000 := (m ((c : Thread nD τ).loc main_arg1))
abbrev wn (c : Dev nD) : Cert.Spec.W4 := (m ((c : Thread nD τ).loc main_arg2))
abbrev wr (c : Dev nD) : Cert.Spec.W4 := (m ((c : Thread nD τ).loc main_arg3))
abbrev bs (c : Dev nD) : Cert.Spec.B4 := (m ((c : Thread nD τ).loc main_arg4))
abbrev wo (c : Dev nD) : Cert.Spec.W2 := (m ((c : Thread nD τ).loc main_arg5))
abbrev bo (c : Dev nD) : Cert.Spec.B1 := (m ((c : Thread nD τ).loc main_arg6))

/-- The three mean-aggregations, each over its edge type's endpoint arrays: the reference's aggregation stage at the
    kernel program's index arguments, as an operator on the feature matrix it aggregates. -/
def g0 (c : Dev nD) : Cert.Spec.Rows 100000 → Cert.Spec.Rows 100000 :=
  fun x => Cert.ReferenceIdeal.Read.val_main_v17 (F := Ideal) x (m ((c : Thread nD τ).loc main_arg7)) (m ((c : Thread nD τ).loc main_arg8))
def g1 (c : Dev nD) : Cert.Spec.Rows 100000 → Cert.Spec.Rows 100000 :=
  fun x => Cert.ReferenceIdeal.Read.val_main_v17 (F := Ideal) x (m ((c : Thread nD τ).loc main_arg9)) (m ((c : Thread nD τ).loc main_arg10))
def g2 (c : Dev nD) : Cert.Spec.Rows 100000 → Cert.Spec.Rows 100000 :=
  fun x => Cert.ReferenceIdeal.Read.val_main_v17 (F := Ideal) x (m ((c : Thread nD τ).loc main_arg11)) (m ((c : Thread nD τ).loc main_arg12))

/-- Round 0, first node type: region 0's first result. -/
theorem roundA0 (hA0 : Region0.BodyA) (c : Dev nD) : W2 m ρ c (Proc.devRef .tc main_v62_0)
    = Cert.Spec.layerA (g1 m c) (g2 m c) (xA m c) (xB m c) (wn m c) (wr m c) (bs m c) 0 := by
  refine (show W2 m ρ c (Proc.devRef .tc main_v62_0) = (dat0 (V1 m ρ) c).arrAt 8 cfg0.N from W2_arr m ρ c 8).trans
    ((Region0.arr_8 (V1 m ρ) hA0 c).trans ?_)
  have e1 : V1 m ρ c main_v35 = g1 m c (xB m c) := Host0.agg1 m ρ c
  have e2 : V1 m ρ c main_v53 = g2 m c (xA m c) := Host0.agg2 m ρ c
  have e3 : V1 m ρ c main_arg0 = xA m c := Kept.W1_arg0 m ρ c
  have e4 : V1 m ρ c main_v56 = Cert.Spec.sliceW (wn m c) 0 := Host0.wn m ρ c
  have e5 : V1 m ρ c main_v59 = Cert.Spec.sliceW (wr m c) 0 := Host0.wr m ρ c
  have e6 : V1 m ρ c main_v61 = Cert.Spec.sliceB (bs m c) 0 := Host0.bias m ρ c
  unfold Region0.newA Cert.Spec.layerA
  rw [e1, e2, e3, e4, e5, e6]
/-- Round 0, second node type: region 0's second result. -/
theorem roundB0 (hB0 : Region0.BodyB) (c : Dev nD) : W2 m ρ c (Proc.devRef .tc main_v62_1)
    = Cert.Spec.layerB (g0 m c) (xA m c) (xB m c) (wn m c) (wr m c) (bs m c) 0 := by
  refine (show W2 m ρ c (Proc.devRef .tc main_v62_1) = (dat0 (V1 m ρ) c).arrAt 9 cfg0.N from W2_arr m ρ c 9).trans
    ((Region0.arr_9 (V1 m ρ) hB0 c).trans ?_)
  have e1 : V1 m ρ c main_v17 = g0 m c (xA m c) := Host0.agg0 m ρ c
  have e3 : V1 m ρ c main_arg1 = xB m c := Kept.W1_arg1 m ρ c
  have e4 : V1 m ρ c main_v56 = Cert.Spec.sliceW (wn m c) 0 := Host0.wn m ρ c
  have e5 : V1 m ρ c main_v59 = Cert.Spec.sliceW (wr m c) 0 := Host0.wr m ρ c
  have e6 : V1 m ρ c main_v61 = Cert.Spec.sliceB (bs m c) 0 := Host0.bias m ρ c
  unfold Region0.newB Cert.Spec.layerB
  rw [e1, e3, e4, e5, e6]

/-- The first round's new features, by the specification. -/
abbrev a1 (c : Dev nD) : Cert.Spec.Rows 100000 := Cert.Spec.layerA (g1 m c) (g2 m c) (xA m c) (xB m c) (wn m c) (wr m c) (bs m c) 0
abbrev b1 (c : Dev nD) : Cert.Spec.Rows 100000 := Cert.Spec.layerB (g0 m c) (xA m c) (xB m c) (wn m c) (wr m c) (bs m c) 0

/-- Round 1, first node type: region 1's first result. -/
theorem roundA1 (hA0 : Region0.BodyA) (hB0 : Region0.BodyB) (hA1 : Region1.BodyA) (c : Dev nD) : W4 m ρ c (Proc.devRef .tc main_v125_0)
    = Cert.Spec.layerA (g1 m c) (g2 m c) (a1 m c) (b1 m c) (wn m c) (wr m c) (bs m c) 1 := by
  refine (show W4 m ρ c (Proc.devRef .tc main_v125_0) = (dat1 (V3 m ρ) c).arrAt 8 cfg1.N from W4_arr m ρ c 8).trans
    ((Region1.arr_8 (V3 m ρ) hA1 c).trans ?_)
  have e1 : V3 m ρ c main_v98 = g1 m c (b1 m c) := (Host1.agg1 m ρ c).trans (by rw [roundB0 m ρ hB0 c]; rfl)
  have e2 : V3 m ρ c main_v116 = g2 m c (a1 m c) := (Host1.agg2 m ρ c).trans (by rw [roundA0 m ρ hA0 c]; rfl)
  have e3 : V3 m ρ c main_v62_0 = a1 m c := (Kept.W3_v62_0 m ρ c).trans (roundA0 m ρ hA0 c)
  have e4 : V3 m ρ c main_v119 = Cert.Spec.sliceW (wn m c) 1 := Host1.wn m ρ c
  have e5 : V3 m ρ c main_v122 = Cert.Spec.sliceW (wr m c) 1 := Host1.wr m ρ c
  have e6 : V3 m ρ c main_v124 = Cert.Spec.sliceB (bs m c) 1 := Host1.bias m ρ c
  unfold Region1.newA Cert.Spec.layerA
  rw [e1, e2, e3, e4, e5, e6]
/-- Round 1, second node type: region 1's second result. -/
theorem roundB1 (hA0 : Region0.BodyA) (hB0 : Region0.BodyB) (hB1 : Region1.BodyB) (c : Dev nD) : W4 m ρ c (Proc.devRef .tc main_v125_1)
    = Cert.Spec.layerB (g0 m c) (a1 m c) (b1 m c) (wn m c) (wr m c) (bs m c) 1 := by
  refine (show W4 m ρ c (Proc.devRef .tc main_v125_1) = (dat1 (V3 m ρ) c).arrAt 9 cfg1.N from W4_arr m ρ c 9).trans
    ((Region1.arr_9 (V3 m ρ) hB1 c).trans ?_)
  have e1 : V3 m ρ c main_v80 = g0 m c (a1 m c) := (Host1.agg0 m ρ c).trans (by rw [roundA0 m ρ hA0 c]; rfl)
  have e3 : V3 m ρ c main_v62_1 = b1 m c := (Kept.W3_v62_1 m ρ c).trans (roundB0 m ρ hB0 c)
  have e4 : V3 m ρ c main_v119 = Cert.Spec.sliceW (wn m c) 1 := Host1.wn m ρ c
  have e5 : V3 m ρ c main_v122 = Cert.Spec.sliceW (wr m c) 1 := Host1.wr m ρ c
  have e6 : V3 m ρ c main_v124 = Cert.Spec.sliceB (bs m c) 1 := Host1.bias m ρ c
  unfold Region1.newB Cert.Spec.layerB
  rw [e1, e3, e4, e5, e6]

/-- THE RESULT: the head over the two node types' round-1 features stacked. -/
theorem result (hA0 : Region0.BodyA) (hB0 : Region0.BodyB) (hA1 : Region1.BodyA) (hB1 : Region1.BodyB) (h2 : Region2.Body) (c : Dev nD) : W6 m ρ c (Proc.devRef .tc main_v128)
    = Cert.Spec.result (g0 m c) (g1 m c) (g2 m c) (xA m c) (xB m c) (wn m c) (wr m c) (bs m c) (wo m c) (bo m c) := by
  refine (show W6 m ρ c (Proc.devRef .tc main_v128) = (dat2 (V5 m ρ) c).arrAt 3 cfg2.N from W6_arr m ρ c 3).trans
    ((Region2.arr_3 (V5 m ρ) h2 c).trans ?_)
  have e0 : V5 m ρ c main_v126 = Cert.Spec.cat
      (Cert.Spec.layerA (g1 m c) (g2 m c) (a1 m c) (b1 m c) (wn m c) (wr m c) (bs m c) 1)
      (Cert.Spec.layerB (g0 m c) (a1 m c) (b1 m c) (wn m c) (wr m c) (bs m c) 1) := by
    show StableHlo.after hostOps2 (W4 m ρ c) (Proc.devRef .tc main_v126) = _
    after_results
    rw [roundA1 m ρ hA0 hB0 hA1 c, roundB1 m ρ hA0 hB0 hB1 c]
    exact Cert.Spec.concatenate_rows _ _ _
  have e1 : V5 m ρ c main_v127 = wo m c := by
    show StableHlo.after hostOps2 (W4 m ρ c) (Proc.devRef .tc main_v127) = _
    after_results
    rw [Kept.W4_arg5 m ρ c]
    rfl
  have e2 : V5 m ρ c main_arg6 = bo m c := Kept.W5_arg6 m ρ c
  unfold Region2.out Cert.Spec.result
  rw [e0, e1, e2]

end Cert.KernelIdeal.Value

end
-- ==== Proof.BlockValues.lean ====
/-
  What each kernel body leaves in its output block, read at one entry.

  A combine body loads its five 5000×64 feature blocks whole, the edge-type slabs of the two 3×64×64
  weight stacks and the rows of the 3×64 bias stack, and stores two 5000×64 blocks, each through the one
  rectangle that is the whole block.  At the extended reals a change of float format is the identity, a
  matrix product into a zero accumulator is the plain sum over the contracted coordinate, a slab of a stack
  read at (0, k, q) is the stack at (e, k, q), and a bias row broadcast down the rows reads the row's entry
  of that column.  So the entry (p, q) of each stored block is the specification's formula for that row and
  column of the loaded blocks, the sums grouped as the body groups them.  The head body is the same with one
  product, one bias and a maximum against zero.
-/
import proofs.«119357_j61100204753259_1_alg».proof.Proof.Gen.KernelIdeal.Frame
import proofs.«119357_j61100204753259_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-! ## Offsets that are all zero, however spelt -/

theorem zero2 : (![0, 0] : Fin 2 → Nat) = fun _ => 0 := funext fun a => by fin_cases a <;> rfl
theorem zero1 : (![0] : Fin 1 → Nat) = fun _ => 0 := funext fun a => by fin_cases a; rfl

/-! ## A block of rows times a 64×64 matrix, into a zero accumulator, at an entry -/

/-- Entry (p, q) of a 5000-row block times a 64×64 matrix is the sum over the shared coordinate. -/
theorem matmul5000_apply (l : FVec Ideal S5000x64 .bf16) (r : FVec Ideal S64x64 .bf16) (p : Fin 5000) (q : Fin 64) :
    FloatOps.matmul dot_S5000x64_S64x64_S5000x64_1_0_0_1_n_n none l r (constant (F := Ideal) S5000x64 .f32 0x00000000#32) (ix2 p q)
      = ∑ k : Fin 64, l (ix2 p k) * r (ix2 k q) := by
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ =>
        show (dot_S5000x64_S64x64_S5000x64_1_0_0_1_n_n.lhsIdx (ix2 p q) _ 0).val = p.val
        unfold DotDims.lhsIdx
        rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
        rfl
      | ⟨1, _⟩ => exact (dot_S5000x64_S64x64_S5000x64_1_0_0_1_n_n.lhsIdx_val_of_single rfl (ix2 p q) _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (dot_S5000x64_S64x64_S5000x64_1_0_0_1_n_n.rhsIdx_val_of_single rfl (ix2 p q) _).trans hk
      | ⟨1, _⟩ =>
        show (dot_S5000x64_S64x64_S5000x64_1_0_0_1_n_n.rhsIdx (ix2 p q) _ 1).val = q.val
        unfold DotDims.rhsIdx
        rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
        rfl)
  rw [el, er]

/-! ## Slabs of the stacks, and the bias row -/

/-- The [1,64,64] slab of a [3,64,64] stack at offset (e, 0, 0), cast to [64,64], reads the stack at (e, k, q). -/
theorem slab_apply (x : Vec Ideal S3x64x64 .bf16) (off : Fin 3 → Nat) (inb : ∀ a, off a + S1x64x64.size a ≤ S3x64x64.size a)
    (hc : S1x64x64.ShapeCasts S64x64) (e : Fin 3) (h0 : off 0 = e.val) (h1 : off 1 = 0) (h2 : off 2 = 0) (k q : Fin 64) :
    shapeCast S64x64 (View.ld x (Rect.unit (s := S3x64x64) off S1x64x64.size inb)) hc (ix2 k q) = x (ix3 e k q) := by
  refine (shapeCast_1ab_ab_apply (View.ld x (Rect.unit (s := S3x64x64) off S1x64x64.size inb)) hc k q).trans ?_
  show x ((Rect.unit (s := S3x64x64) off S1x64x64.size inb).idx (ix3 (0 : Fin 1) k q)) = x (ix3 e k q)
  refine congrArg x (funext fun a => Fin.ext ?_)
  match a with
  | ⟨0, _⟩ => show off 0 + 1 * 0 = e.val; omega
  | ⟨1, _⟩ => show off 1 + 1 * k.val = k.val; omega
  | ⟨2, _⟩ => show off 2 + 1 * q.val = q.val; omega

/-- The [1,64] row of a [3,64] stack at offset (e, 0) reads the stack at (e, q). -/
theorem row_apply (x : Vec Ideal S3x64 .f32) (off : Fin 2 → Nat) (inb : ∀ a, off a + S1x64.size a ≤ S3x64.size a)
    (e : Fin 3) (h0 : off 0 = e.val) (h1 : off 1 = 0) (q : Fin 64) :
    View.ld x (Rect.unit (s := S3x64) off S1x64.size inb) (ix2 (0 : Fin 1) q) = x (ix2 e q) := by
  show x ((Rect.unit (s := S3x64) off S1x64.size inb).idx (ix2 (0 : Fin 1) q)) = x (ix2 e q)
  refine congrArg x (funext fun a => Fin.ext ?_)
  match a with
  | ⟨0, _⟩ => show off 0 + 1 * 0 = e.val; omega
  | ⟨1, _⟩ => show off 1 + 1 * q.val = q.val; omega

/-- A 64-vector recast as one row and broadcast down the rows reads, at (p, q), its entry q. -/
theorem bias_apply {n : Nat} (v : FVec Ideal S64 .f32) (hc : S64.ShapeCasts S1x64) (hb : S1x64.Broadcasts ⟨2, ![n, 64]⟩)
    (p : Fin n) (q : Fin 64) :
    broadcastTo ⟨2, ![n, 64]⟩ (shapeCast S1x64 v hc) hb (ix2 p q) = v (ix1 q) :=
  (broadcastTo_1b_ab_apply (shapeCast S1x64 v hc) hb p q).trans (shapeCast_a_1a_apply v hc 0 q)

/-- A row cast to a 64-vector reads, at q, the row at (0, q). -/
theorem unrow_apply (v : Vec Ideal S1x64 .f32) (hc : S1x64.ShapeCasts S64) (q : Fin 64) :
    shapeCast S64 v hc (ix1 q) = v (ix2 (0 : Fin 1) q) :=
  shapeCast_1a_a_apply v hc q

/-! ## The format changes and same-shape casts in front of the products -/

/-- A block narrowed to bf16 reads the block. -/
theorem narrow_apply (v : Vec Ideal S5000x64 .f32) (h : FTy.bits .bf16 < FTy.bits .f32) (i : S5000x64.Idx) :
    truncf (F := Ideal) .bf16 v h i = v i := rfl

/-- A block cast to its own shape and narrowed reads the block. -/
theorem cast_narrow_apply (v : Vec Ideal S5000x64 .f32) (hc : S5000x64.ShapeCasts S5000x64) (h : FTy.bits .bf16 < FTy.bits .f32)
    (i : S5000x64.Idx) : truncf (F := Ideal) .bf16 (shapeCast S5000x64 v hc) h i = v i :=
  congrFun (shapeCast_self v hc) i

/-! ## The two stored values of a combine body, at an entry -/

/-- The second node type's store: two products and one bias. -/
theorem k0_pay1_apply (v3 v6 : FVec Ideal S5000x64 .bf16) (v14 v20 : FVec Ideal S64x64 .bf16) (v26 : FVec Ideal S64 .f32)
    (p : Fin 5000) (q : Fin 64) :
    k0_pay1 (F := Ideal) v3 v6 v14 v20 v26 (ix2 p q)
      = ((∑ k : Fin 64, v6 (ix2 p k) * v14 (ix2 k q)) + (∑ k : Fin 64, v3 (ix2 p k) * v20 (ix2 k q))) + v26 (ix1 q) := by
  unfold k0_pay1
  exact congrArg₂ (· + ·) (congrArg₂ (· + ·) (matmul5000_apply v6 v14 p q) (matmul5000_apply v3 v20 p q))
    (bias_apply v26 _ _ p q)

/-- The first node type's store: four products and two biases, grouped as the body adds them. -/
theorem k0_pay2_apply (v1 v9 v12 : FVec Ideal S5000x64 .bf16) (v16 v18 v22 v24 : FVec Ideal S64x64 .bf16)
    (v27 v29 : Vec Ideal S1x64 .f32) (p : Fin 5000) (q : Fin 64) :
    k0_pay2 (F := Ideal) v1 v9 v12 v16 v18 v22 v24 v27 v29 (ix2 p q)
      = (((((∑ k : Fin 64, v9 (ix2 p k) * v16 (ix2 k q)) + (∑ k : Fin 64, v1 (ix2 p k) * v22 (ix2 k q))) + v27 (ix2 (0 : Fin 1) q))
          + (∑ k : Fin 64, v12 (ix2 p k) * v18 (ix2 k q))) + (∑ k : Fin 64, v1 (ix2 p k) * v24 (ix2 k q))) + v29 (ix2 (0 : Fin 1) q) := by
  unfold k0_pay2
  exact congrArg₂ (· + ·) (congrArg₂ (· + ·) (congrArg₂ (· + ·) (congrArg₂ (· + ·)
      (congrArg₂ (· + ·) (matmul5000_apply v9 v16 p q) (matmul5000_apply v1 v22 p q))
      ((bias_apply _ _ _ p q).trans (unrow_apply v27 _ q)))
      (matmul5000_apply v12 v18 p q)) (matmul5000_apply v1 v24 p q))
    ((bias_apply _ _ _ p q).trans (unrow_apply v29 _ q))

/-- Region 1's stored values are the same terms of their operands as region 0's. -/
theorem k1_pay1_apply (v3 v6 : FVec Ideal S5000x64 .bf16) (v14 v20 : FVec Ideal S64x64 .bf16) (v26 : FVec Ideal S64 .f32)
    (p : Fin 5000) (q : Fin 64) :
    k1_pay1 (F := Ideal) v3 v6 v14 v20 v26 (ix2 p q)
      = ((∑ k : Fin 64, v6 (ix2 p k) * v14 (ix2 k q)) + (∑ k : Fin 64, v3 (ix2 p k) * v20 (ix2 k q))) + v26 (ix1 q) :=
  k0_pay1_apply v3 v6 v14 v20 v26 p q

theorem k1_pay2_apply (v1 v9 v12 : FVec Ideal S5000x64 .bf16) (v16 v18 v22 v24 : FVec Ideal S64x64 .bf16)
    (v27 v29 : Vec Ideal S1x64 .f32) (p : Fin 5000) (q : Fin 64) :
    k1_pay2 (F := Ideal) v1 v9 v12 v16 v18 v22 v24 v27 v29 (ix2 p q)
      = (((((∑ k : Fin 64, v9 (ix2 p k) * v16 (ix2 k q)) + (∑ k : Fin 64, v1 (ix2 p k) * v22 (ix2 k q))) + v27 (ix2 (0 : Fin 1) q))
          + (∑ k : Fin 64, v12 (ix2 p k) * v18 (ix2 k q))) + (∑ k : Fin 64, v1 (ix2 p k) * v24 (ix2 k q))) + v29 (ix2 (0 : Fin 1) q) :=
  k0_pay2_apply v1 v9 v12 v16 v18 v22 v24 v27 v29 p q

/-! ## The combine body's two output blocks, at an entry -/

theorem out0_9_entry (x0 x1 x2 x3 x4 : Vec Ideal S5000x64 .f32) (x5 x6 : Vec Ideal S3x64x64 .bf16) (x7 : Vec Ideal S3x64 .f32)
    (p : Fin 5000) (q : Fin 64) :
    out0_9 (F := Ideal) x0 x1 x2 x3 x4 x5 x6 x7 (ix2 p q)
      = ((∑ k : Fin 64, x2 (ix2 p k) * x5 (ix3 (0 : Fin 3) k q)) + (∑ k : Fin 64, x1 (ix2 p k) * x6 (ix3 (0 : Fin 3) k q)))
          + x7 (ix2 (0 : Fin 3) q) := by
  unfold out0_9
  rw [View.canon_unit_zero zero2]
  simp only [View.ld_unit_zero (S := S5000x64) zero2]
  refine (k0_pay1_apply _ _ _ _ _ p q).trans ?_
  refine congrArg₂ (· + ·) (congrArg₂ (· + ·) (Finset.sum_congr rfl fun k _ => ?_) (Finset.sum_congr rfl fun k _ => ?_)) ?_
  · exact congrArg₂ (· * ·) (cast_narrow_apply x2 _ _ (ix2 p k)) (slab_apply x5 ![0, 0, 0] _ _ 0 rfl rfl rfl k q)
  · exact congrArg₂ (· * ·) (narrow_apply x1 _ (ix2 p k)) (slab_apply x6 ![0, 0, 0] _ _ 0 rfl rfl rfl k q)
  · exact (unrow_apply _ _ q).trans (row_apply x7 ![0, 0] _ 0 rfl rfl q)

theorem out0_8_entry (x0 x1 x2 x3 x4 : Vec Ideal S5000x64 .f32) (x5 x6 : Vec Ideal S3x64x64 .bf16) (x7 : Vec Ideal S3x64 .f32)
    (p : Fin 5000) (q : Fin 64) :
    out0_8 (F := Ideal) x0 x1 x2 x3 x4 x5 x6 x7 (ix2 p q)
      = (((((∑ k : Fin 64, x3 (ix2 p k) * x5 (ix3 (1 : Fin 3) k q)) + (∑ k : Fin 64, x0 (ix2 p k) * x6 (ix3 (1 : Fin 3) k q)))
            + x7 (ix2 (1 : Fin 3) q))
          + (∑ k : Fin 64, x4 (ix2 p k) * x5 (ix3 (2 : Fin 3) k q))) + (∑ k : Fin 64, x0 (ix2 p k) * x6 (ix3 (2 : Fin 3) k q)))
          + x7 (ix2 (2 : Fin 3) q) := by
  unfold out0_8
  rw [View.canon_unit_zero zero2]
  simp only [View.ld_unit_zero (S := S5000x64) zero2]
  refine (k0_pay2_apply _ _ _ _ _ _ _ _ _ p q).trans ?_
  refine congrArg₂ (· + ·) (congrArg₂ (· + ·) (congrArg₂ (· + ·) (congrArg₂ (· + ·) (congrArg₂ (· + ·)
      (Finset.sum_congr rfl fun k _ => ?_) (Finset.sum_congr rfl fun k _ => ?_)) ?_)
      (Finset.sum_congr rfl fun k _ => ?_)) (Finset.sum_congr rfl fun k _ => ?_)) ?_
  · exact congrArg₂ (· * ·) (cast_narrow_apply x3 _ _ (ix2 p k)) (slab_apply x5 ![1, 0, 0] _ _ 1 rfl rfl rfl k q)
  · exact congrArg₂ (· * ·) (narrow_apply x0 _ (ix2 p k)) (slab_apply x6 ![1, 0, 0] _ _ 1 rfl rfl rfl k q)
  · exact row_apply x7 ![1, 0] _ 1 rfl rfl q
  · exact congrArg₂ (· * ·) (cast_narrow_apply x4 _ _ (ix2 p k)) (slab_apply x5 ![2, 0, 0] _ _ 2 rfl rfl rfl k q)
  · exact congrArg₂ (· * ·) (narrow_apply x0 _ (ix2 p k)) (slab_apply x6 ![2, 0, 0] _ _ 2 rfl rfl rfl k q)
  · exact row_apply x7 ![2, 0] _ 2 rfl rfl q

theorem out1_9_entry (x0 x1 x2 x3 x4 : Vec Ideal S5000x64 .f32) (x5 x6 : Vec Ideal S3x64x64 .bf16) (x7 : Vec Ideal S3x64 .f32)
    (p : Fin 5000) (q : Fin 64) :
    out1_9 (F := Ideal) x0 x1 x2 x3 x4 x5 x6 x7 (ix2 p q)
      = ((∑ k : Fin 64, x2 (ix2 p k) * x5 (ix3 (0 : Fin 3) k q)) + (∑ k : Fin 64, x1 (ix2 p k) * x6 (ix3 (0 : Fin 3) k q)))
          + x7 (ix2 (0 : Fin 3) q) := by
  unfold out1_9
  rw [View.canon_unit_zero zero2]
  simp only [View.ld_unit_zero (S := S5000x64) zero2]
  refine (k1_pay1_apply _ _ _ _ _ p q).trans ?_
  refine congrArg₂ (· + ·) (congrArg₂ (· + ·) (Finset.sum_congr rfl fun k _ => ?_) (Finset.sum_congr rfl fun k _ => ?_)) ?_
  · exact congrArg₂ (· * ·) (cast_narrow_apply x2 _ _ (ix2 p k)) (slab_apply x5 ![0, 0, 0] _ _ 0 rfl rfl rfl k q)
  · exact congrArg₂ (· * ·) (cast_narrow_apply x1 _ _ (ix2 p k)) (slab_apply x6 ![0, 0, 0] _ _ 0 rfl rfl rfl k q)
  · exact (unrow_apply _ _ q).trans (row_apply x7 ![0, 0] _ 0 rfl rfl q)

theorem out1_8_entry (x0 x1 x2 x3 x4 : Vec Ideal S5000x64 .f32) (x5 x6 : Vec Ideal S3x64x64 .bf16) (x7 : Vec Ideal S3x64 .f32)
    (p : Fin 5000) (q : Fin 64) :
    out1_8 (F := Ideal) x0 x1 x2 x3 x4 x5 x6 x7 (ix2 p q)
      = (((((∑ k : Fin 64, x3 (ix2 p k) * x5 (ix3 (1 : Fin 3) k q)) + (∑ k : Fin 64, x0 (ix2 p k) * x6 (ix3 (1 : Fin 3) k q)))
            + x7 (ix2 (1 : Fin 3) q))
          + (∑ k : Fin 64, x4 (ix2 p k) * x5 (ix3 (2 : Fin 3) k q))) + (∑ k : Fin 64, x0 (ix2 p k) * x6 (ix3 (2 : Fin 3) k q)))
          + x7 (ix2 (2 : Fin 3) q) := by
  unfold out1_8
  rw [View.canon_unit_zero zero2]
  simp only [View.ld_unit_zero (S := S5000x64) zero2]
  refine (k1_pay2_apply _ _ _ _ _ _ _ _ _ p q).trans ?_
  refine congrArg₂ (· + ·) (congrArg₂ (· + ·) (congrArg₂ (· + ·) (congrArg₂ (· + ·) (congrArg₂ (· + ·)
      (Finset.sum_congr rfl fun k _ => ?_) (Finset.sum_congr rfl fun k _ => ?_)) ?_)
      (Finset.sum_congr rfl fun k _ => ?_)) (Finset.sum_congr rfl fun k _ => ?_)) ?_
  · exact congrArg₂ (· * ·) (cast_narrow_apply x3 _ _ (ix2 p k)) (slab_apply x5 ![1, 0, 0] _ _ 1 rfl rfl rfl k q)
  · exact congrArg₂ (· * ·) (cast_narrow_apply x0 _ _ (ix2 p k)) (slab_apply x6 ![1, 0, 0] _ _ 1 rfl rfl rfl k q)
  · exact row_apply x7 ![1, 0] _ 1 rfl rfl q
  · exact congrArg₂ (· * ·) (cast_narrow_apply x4 _ _ (ix2 p k)) (slab_apply x5 ![2, 0, 0] _ _ 2 rfl rfl rfl k q)
  · exact congrArg₂ (· * ·) (cast_narrow_apply x0 _ _ (ix2 p k)) (slab_apply x6 ![2, 0, 0] _ _ 2 rfl rfl rfl k q)
  · exact row_apply x7 ![2, 0] _ 2 rfl rfl q

/-! ## The head body's output block, at an entry -/

/-- Entry (p, q) of a 20000-row block times a 64×64 matrix is the sum over the shared coordinate. -/
theorem matmul20000_apply (l : FVec Ideal S20000x64 .bf16) (r : FVec Ideal S64x64 .bf16) (p : Fin 20000) (q : Fin 64) :
    FloatOps.matmul dot_S20000x64_S64x64_S20000x64_1_0_0_1_n_n none l r (constant (F := Ideal) S20000x64 .f32 0x00000000#32) (ix2 p q)
      = ∑ k : Fin 64, l (ix2 p k) * r (ix2 k q) := by
  rw [Ideal.matmul_constant_zero_apply, ← Equiv.sum_comp (contrEquiv1 dot_S20000x64_S64x64_S20000x64_1_0_0_1_n_n 64 rfl rfl).symm]
  refine Finset.sum_congr rfl fun k _ => ?_
  have hk := contrEquiv1_symm_val dot_S20000x64_S64x64_S20000x64_1_0_0_1_n_n 64 rfl rfl k
  have el : dot_S20000x64_S64x64_S20000x64_1_0_0_1_n_n.lhsIdx (ix2 p q) ((contrEquiv1 dot_S20000x64_S64x64_S20000x64_1_0_0_1_n_n 64 rfl rfl).symm k) = ix2 p k :=
    funext fun a => Fin.ext (by
      match a with
      | ⟨0, _⟩ =>
        show (dot_S20000x64_S64x64_S20000x64_1_0_0_1_n_n.lhsIdx (ix2 p q) _ 0).val = p.val
        unfold DotDims.lhsIdx
        rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
        rfl
      | ⟨1, _⟩ => exact (dot_S20000x64_S64x64_S20000x64_1_0_0_1_n_n.lhsIdx_val_of_single rfl (ix2 p q) _).trans hk)
  have er : dot_S20000x64_S64x64_S20000x64_1_0_0_1_n_n.rhsIdx (ix2 p q) ((contrEquiv1 dot_S20000x64_S64x64_S20000x64_1_0_0_1_n_n 64 rfl rfl).symm k) = ix2 k q :=
    funext fun a => Fin.ext (by
      match a with
      | ⟨0, _⟩ => exact (dot_S20000x64_S64x64_S20000x64_1_0_0_1_n_n.rhsIdx_val_of_single rfl (ix2 p q) _).trans hk
      | ⟨1, _⟩ =>
        show (dot_S20000x64_S64x64_S20000x64_1_0_0_1_n_n.rhsIdx (ix2 p q) _ 1).val = q.val
        unfold DotDims.rhsIdx
        rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
        rfl)
  rw [el, er]

/-- The head's store: one product, the bias, and the maximum against the zero word. -/
theorem k2_pay1_apply (v0 : Vec Ideal S20000x64 .f32) (v3 : Vec Ideal S64x64 .bf16) (v6 : Vec Ideal S64 .f32)
    (p : Fin 20000) (q : Fin 64) :
    k2_pay1 (F := Ideal) v0 v3 v6 (ix2 p q) = max ((∑ k : Fin 64, v0 (ix2 p k) * v3 (ix2 k q)) + v6 (ix1 q)) 0 := by
  unfold k2_pay1
  exact congrArg₂ max
    (congrArg₂ (· + ·)
      ((matmul20000_apply _ _ p q).trans (Finset.sum_congr rfl fun k _ =>
        congrArg₂ (· * ·) (congrFun (shapeCast_self v0 _) (ix2 p k)) (congrFun (shapeCast_self v3 _) (ix2 k q))))
      (bias_apply v6 _ _ p q))
    Ideal.ofBits_zero_f32

theorem out2_3_entry (x0 : Vec Ideal S20000x64 .f32) (x1 : Vec Ideal S64x64 .bf16) (x2 : Vec Ideal S64 .f32)
    (p : Fin 20000) (q : Fin 64) :
    out2_3 (F := Ideal) x0 x1 x2 (ix2 p q) = max ((∑ k : Fin 64, x0 (ix2 p k) * x1 (ix2 k q)) + x2 (ix1 q)) 0 := by
  unfold out2_3
  rw [View.canon_unit_zero zero2]
  simp only [View.ld_unit_zero (S := S20000x64) zero2, View.ld_unit_zero (S := S64x64) zero2, View.ld_unit_zero (S := S64) zero1]
  exact k2_pay1_apply x0 x1 x2 p q

/-! ## The same, as the specification's formulas -/

/-- Region 0, second node type: the block entry is the specification's new feature of the loaded blocks. -/
theorem out0_9_apply (x0 x1 x2 x3 x4 : Vec Ideal S5000x64 .f32) (x5 x6 : Vec Ideal S3x64x64 .bf16) (x7 : Vec Ideal S3x64 .f32)
    (p : Fin 5000) (q : Fin 64) :
    out0_9 (F := Ideal) x0 x1 x2 x3 x4 x5 x6 x7 (ix2 p q) = Cert.Spec.newB x2 x1 x5 x6 x7 p q :=
  out0_9_entry x0 x1 x2 x3 x4 x5 x6 x7 p q

/-- Region 0, first node type. -/
theorem out0_8_apply (x0 x1 x2 x3 x4 : Vec Ideal S5000x64 .f32) (x5 x6 : Vec Ideal S3x64x64 .bf16) (x7 : Vec Ideal S3x64 .f32)
    (p : Fin 5000) (q : Fin 64) :
    out0_8 (F := Ideal) x0 x1 x2 x3 x4 x5 x6 x7 (ix2 p q) = Cert.Spec.newA x3 x4 x0 x5 x6 x7 p q :=
  out0_8_entry x0 x1 x2 x3 x4 x5 x6 x7 p q

/-- Region 1, second node type. -/
theorem out1_9_apply (x0 x1 x2 x3 x4 : Vec Ideal S5000x64 .f32) (x5 x6 : Vec Ideal S3x64x64 .bf16) (x7 : Vec Ideal S3x64 .f32)
    (p : Fin 5000) (q : Fin 64) :
    out1_9 (F := Ideal) x0 x1 x2 x3 x4 x5 x6 x7 (ix2 p q) = Cert.Spec.newB x2 x1 x5 x6 x7 p q :=
  out1_9_entry x0 x1 x2 x3 x4 x5 x6 x7 p q

/-- Region 1, first node type. -/
theorem out1_8_apply (x0 x1 x2 x3 x4 : Vec Ideal S5000x64 .f32) (x5 x6 : Vec Ideal S3x64x64 .bf16) (x7 : Vec Ideal S3x64 .f32)
    (p : Fin 5000) (q : Fin 64) :
    out1_8 (F := Ideal) x0 x1 x2 x3 x4 x5 x6 x7 (ix2 p q) = Cert.Spec.newA x3 x4 x0 x5 x6 x7 p q :=
  out1_8_entry x0 x1 x2 x3 x4 x5 x6 x7 p q

/-- Region 2: the block entry is the specification's head of the loaded block. -/
theorem out2_3_apply (x0 : Vec Ideal S20000x64 .f32) (x1 : Vec Ideal S64x64 .bf16) (x2 : Vec Ideal S64 .f32)
    (p : Fin 20000) (q : Fin 64) :
    out2_3 (F := Ideal) x0 x1 x2 (ix2 p q) = Cert.Spec.headAt x0 x1 x2 p q :=
  out2_3_entry x0 x1 x2 p q

end Cert.KernelIdeal.BlockValue

end
-- ==== Proof.RefValue.lean ====
/-
  The reference program, read entry by entry, is the specification.

  The reference runs two rounds of message passing and a rectified linear head.  In a round, each of the three
  mean aggregations (a gather along an edge list, two scatter-adds, a maximum with one, a division) is the SAME
  operator applied to another feature matrix and another edge list; it is carried here as one function of the
  feature matrix and never opened.  What is left of a round is, per entry `(p, q)`, a few sums over the 64
  columns of a row against a column of a 64×64 matrix cut out of a weight stack, plus an entry of a bias cut out
  of a bias stack, added in the order the program adds them.  Each such sum is read off the program's
  `dot_general`; the cut (a slice followed by a reshape that drops two unit axes) and the two broadcasts of the
  bias are identified with plain coordinates by arithmetic on the row-major position: for `k, q < 64`,
  `(k·64 + q) / 64 % 64 = k` and `(k·64 + q) % 64 = q`.

  The head is `max (Σₖ x[p,k]·W[k,q] + b[q]) 0` on each node type, and the result stacks the first type's rows on
  the second's.  Stacking commutes with a row-wise map: entry `(p, q)` of the head of the stacked matrix only
  reads row `p` of the stack, which is row `p` of the first matrix when `p < 100000` and row `p − 100000` of the
  second otherwise.
-/
import proofs.«119357_j61100204753259_1_alg».proof.Proof.Gen.ReferenceIdeal.Read
import proofs.«119357_j61100204753259_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-- A node feature matrix, an edge list, a weight stack and a bias stack, typed as the reference's stages type them. -/
abbrev Feat (F : FTy → Type) : Type := (⟨S100000x64, .f32⟩ : BufTy).Contents (Elt F)
abbrev Edges (F : FTy → Type) : Type := (⟨S1200000, .i32⟩ : BufTy).Contents (Elt F)
abbrev Wts (F : FTy → Type) : Type := (⟨S2x3x64x64, .f32⟩ : BufTy).Contents (Elt F)
abbrev Bias (F : FTy → Type) : Type := (⟨S2x3x64, .f32⟩ : BufTy).Contents (Elt F)

/-! ## The six aggregations are one operator

The operation chains of the six aggregation stages are the same line for line; only the feature matrix and the
edge list going in differ.  Nothing is computed here: both sides unfold to the same term over their arguments. -/

section Agg
variable {F : FTy → Type} [FloatOps F]

theorem agg1_eq (x1 : Feat F) (x9 x10 : Edges F) :
    val_main_v35 (F := F) x1 x9 x10 = val_main_v17 (F := F) x1 x9 x10 := rfl

theorem agg2_eq (x0 : Feat F) (x11 x12 : Edges F) :
    val_main_v53 (F := F) x0 x11 x12 = val_main_v17 (F := F) x0 x11 x12 := rfl

theorem agg0'_eq (x0 x1 : Feat F) (x2 x3 : Wts F) (x4 : Bias F) (x7 x8 x9 x10 x11 x12 : Edges F) :
    val_main_v108 (F := F) x0 x1 x2 x3 x4 x7 x8 x9 x10 x11 x12
      = val_main_v17 (F := F) (val_main_v90 (F := F) x0 x1 x2 x3 x4 x9 x10 x11 x12) x7 x8 := rfl

theorem agg1'_eq (x0 x1 : Feat F) (x2 x3 : Wts F) (x4 : Bias F) (x7 x8 x9 x10 : Edges F) :
    val_main_v126 (F := F) x0 x1 x2 x3 x4 x7 x8 x9 x10
      = val_main_v17 (F := F) (val_main_v65 (F := F) x0 x1 x2 x3 x4 x7 x8) x9 x10 := rfl

theorem agg2'_eq (x0 x1 : Feat F) (x2 x3 : Wts F) (x4 : Bias F) (x9 x10 x11 x12 : Edges F) :
    val_main_v144 (F := F) x0 x1 x2 x3 x4 x9 x10 x11 x12
      = val_main_v17 (F := F) (val_main_v90 (F := F) x0 x1 x2 x3 x4 x9 x10 x11 x12) x11 x12 := rfl

end Agg

/-! ## The specification's pieces from sums whose index functions are known

The matrices are variables here; the index functions are whatever the program composes, known only through the
coordinates they produce. -/

open Cert.Spec in
/-- A row against a column of the matrix of round `l`, edge type `e`. -/
theorem dot_read {n : Nat} (m : Rows n) (W : W4) (l : Fin 2) (e : Fin 3) (p : Fin n) (q : Fin 64)
    (li : Fin 64 → (⟨2, ![n, 64]⟩ : Shape).Idx) (ri : Fin 64 → (⟨4, ![2, 3, 64, 64]⟩ : Shape).Idx)
    (hl : ∀ k, li k = ix2 p k) (hr : ∀ k, ri k = ix4 l e k q) :
    ∑ k : Fin 64, m (li k) * W (ri k) = dot64 m (sliceW W l) e p q := by
  unfold dot64 sliceW
  refine Finset.sum_congr rfl fun k _ => ?_
  rw [hl k, hr k]

open Cert.Spec in
/-- An entry of the bias of round `l`, edge type `e`. -/
theorem bias_read (b : B4) (l : Fin 2) (e : Fin 3) (q : Fin 64) (bi : (⟨3, ![2, 3, 64]⟩ : Shape).Idx)
    (hb : bi = ix3 l e q) : b bi = sliceB b l (ix2 e q) := by
  rw [hb]; rfl

open Cert.Spec in
/-- The second node type's new feature, from its two sums and its bias entry. -/
theorem newB_read (m0 xB : Rows 100000) (Wn Wr : W4) (b : B4) (l : Fin 2) (p : Fin 100000) (q : Fin 64)
    (l0 l1 : Fin 64 → (⟨2, ![100000, 64]⟩ : Shape).Idx) (r0 r1 : Fin 64 → (⟨4, ![2, 3, 64, 64]⟩ : Shape).Idx)
    (bi : (⟨3, ![2, 3, 64]⟩ : Shape).Idx)
    (hl0 : ∀ k, l0 k = ix2 p k) (hr0 : ∀ k, r0 k = ix4 l 0 k q)
    (hl1 : ∀ k, l1 k = ix2 p k) (hr1 : ∀ k, r1 k = ix4 l 0 k q) (hb : bi = ix3 l 0 q) :
    (∑ k : Fin 64, m0 (l0 k) * Wn (r0 k) + ∑ k : Fin 64, xB (l1 k) * Wr (r1 k)) + b bi
      = newB m0 xB (sliceW Wn l) (sliceW Wr l) (sliceB b l) p q := by
  unfold newB
  rw [dot_read m0 Wn l 0 p q l0 r0 hl0 hr0, dot_read xB Wr l 0 p q l1 r1 hl1 hr1, bias_read b l 0 q bi hb]

open Cert.Spec in
/-- The first node type's new feature, from its four sums and two bias entries, in the program's order. -/
theorem newA_read (m1 m2 xA : Rows 100000) (Wn Wr : W4) (b : B4) (l : Fin 2) (p : Fin 100000) (q : Fin 64)
    (l0 l1 l2 l3 : Fin 64 → (⟨2, ![100000, 64]⟩ : Shape).Idx)
    (r0 r1 r2 r3 : Fin 64 → (⟨4, ![2, 3, 64, 64]⟩ : Shape).Idx)
    (b1 b2 : (⟨3, ![2, 3, 64]⟩ : Shape).Idx)
    (hl0 : ∀ k, l0 k = ix2 p k) (hr0 : ∀ k, r0 k = ix4 l 1 k q)
    (hl1 : ∀ k, l1 k = ix2 p k) (hr1 : ∀ k, r1 k = ix4 l 1 k q) (hb1 : b1 = ix3 l 1 q)
    (hl2 : ∀ k, l2 k = ix2 p k) (hr2 : ∀ k, r2 k = ix4 l 2 k q)
    (hl3 : ∀ k, l3 k = ix2 p k) (hr3 : ∀ k, r3 k = ix4 l 2 k q) (hb2 : b2 = ix3 l 2 q) :
    (((((∑ k : Fin 64, m1 (l0 k) * Wn (r0 k) + ∑ k : Fin 64, xA (l1 k) * Wr (r1 k)) + b b1)
        + ∑ k : Fin 64, m2 (l2 k) * Wn (r2 k)) + ∑ k : Fin 64, xA (l3 k) * Wr (r3 k)) + b b2)
      = newA m1 m2 xA (sliceW Wn l) (sliceW Wr l) (sliceB b l) p q := by
  unfold newA
  rw [dot_read m1 Wn l 1 p q l0 r0 hl0 hr0, dot_read xA Wr l 1 p q l1 r1 hl1 hr1, bias_read b l 1 q b1 hb1,
    dot_read m2 Wn l 2 p q l2 r2 hl2 hr2, dot_read xA Wr l 2 p q l3 r3 hl3 hr3, bias_read b l 2 q b2 hb2]

open Cert.Spec in
/-- The head at one entry, from its sum and its bias entry. -/
theorem head_read (x : Rows 100000) (W : W2) (bo : B1) (p : Fin 100000) (q : Fin 64)
    (li : Fin 64 → (⟨2, ![100000, 64]⟩ : Shape).Idx) (ri : Fin 64 → (⟨2, ![64, 64]⟩ : Shape).Idx)
    (bi : (⟨1, ![64]⟩ : Shape).Idx)
    (hl : ∀ k, li k = ix2 p k) (hr : ∀ k, ri k = ix2 k q) (hb : bi = ix1 q) :
    max ((∑ k : Fin 64, x (li k) * W (ri k)) + bo bi) 0 = headAt x W bo p q := by
  unfold headAt
  rw [hb]
  refine congrArg (fun s => max (s + bo (ix1 q)) 0) (Finset.sum_congr rfl fun k _ => ?_)
  rw [hl k, hr k]

open Cert.Spec in
/-- The head of a stack reads the upper matrix on the upper rows … -/
theorem head_cat_left (a b : Rows 100000) (W : W2) (bo : B1) (p : Fin 200000) (q : Fin 64) (h : p.val < 100000) :
    head (cat a b) W bo (ix2 p q) = headAt a W bo ⟨p.val, h⟩ q := by
  have e : ∀ k : Fin 64, cat a b (ix2 p k) = a (ix2 ⟨p.val, h⟩ k) := fun k => by
    unfold cat
    exact (dif_pos (show ((ix2 p k : (⟨2, ![200000, 64]⟩ : Shape).Idx) 0).val < 100000 from h)).trans rfl
  show headAt (cat a b) W bo p q = _
  unfold headAt
  refine congrArg (fun s => max (s + bo (ix1 q)) 0) (Finset.sum_congr rfl fun k _ => ?_)
  rw [e k]

open Cert.Spec in
/-- … and the lower matrix, 100000 rows up, on the lower rows. -/
theorem head_cat_right (a b : Rows 100000) (W : W2) (bo : B1) (p : Fin 200000) (q : Fin 64) (h : ¬ p.val < 100000)
    (hp : p.val - 100000 < 100000) :
    head (cat a b) W bo (ix2 p q) = headAt b W bo ⟨p.val - 100000, hp⟩ q := by
  have e : ∀ k : Fin 64, cat a b (ix2 p k) = b (ix2 ⟨p.val - 100000, hp⟩ k) := fun k => by
    unfold cat
    exact (dif_neg (show ¬ ((ix2 p k : (⟨2, ![200000, 64]⟩ : Shape).Idx) 0).val < 100000 from h)).trans rfl
  show headAt (cat a b) W bo p q = _
  unfold headAt
  refine congrArg (fun s => max (s + bo (ix1 q)) 0) (Finset.sum_congr rfl fun k _ => ?_)
  rw [e k]

/-! ## The program's composed index functions, by coordinates

Every `dot_general` of the program contracts the columns of a 100000×64 matrix against the rows of a 64×64 one, so
all their index functions are one function; the cuts differ in the round `l` and the edge type `e` they start at. -/

/-- The left operand of a product is read at row `p`, column `k`. -/
theorem lidx_eq (p : Fin 100000) (q k : Fin 64) : lidx_main_v56 (ix2 p q) k = ix2 p k := by
  funext a
  match a with
  | ⟨0, _⟩ => rfl
  | ⟨1, _⟩ => rfl

/-- The head's matrix is read at row `k`, column `q`. -/
theorem hwidx (p : Fin 100000) (q k : Fin 64) : ridx_main_v182 (ix2 p q) k = ix2 k q := by
  funext a
  match a with
  | ⟨0, _⟩ => rfl
  | ⟨1, _⟩ => rfl

/-- The head's bias, broadcast twice, is read at `q`. -/
theorem hbidx (p : Fin 100000) (q : Fin 64) : idx_main_v183 (idx_main_v184 (ix2 p q)) = ix1 q := by
  funext a
  match a with
  | ⟨0, _⟩ => rfl

/-- The matrix of round 0, edge type 0, is read at row `k`, column `q`: the row-major position `k·64 + q` splits back into `(k, q)`. -/
theorem widx_00 (p : Fin 100000) (q k : Fin 64) :
    idx_main_v54 (idx_main_v55 (ridx_main_v56 (ix2 p q) k)) = ix4 (0 : Fin 2) (0 : Fin 3) k q := by
  have hk : k.val < 64 := k.isLt
  have hq : q.val < 64 := q.isLt
  funext a
  apply Fin.ext
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- The matrix of round 0, edge type 1, is read at row `k`, column `q`: the row-major position `k·64 + q` splits back into `(k, q)`. -/
theorem widx_01 (p : Fin 100000) (q k : Fin 64) :
    idx_main_v66 (idx_main_v67 (ridx_main_v68 (ix2 p q) k)) = ix4 (0 : Fin 2) (1 : Fin 3) k q := by
  have hk : k.val < 64 := k.isLt
  have hq : q.val < 64 := q.isLt
  funext a
  apply Fin.ext
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- The matrix of round 0, edge type 2, is read at row `k`, column `q`: the row-major position `k·64 + q` splits back into `(k, q)`. -/
theorem widx_02 (p : Fin 100000) (q k : Fin 64) :
    idx_main_v78 (idx_main_v79 (ridx_main_v80 (ix2 p q) k)) = ix4 (0 : Fin 2) (2 : Fin 3) k q := by
  have hk : k.val < 64 := k.isLt
  have hq : q.val < 64 := q.isLt
  funext a
  apply Fin.ext
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- The matrix of round 1, edge type 0, is read at row `k`, column `q`: the row-major position `k·64 + q` splits back into `(k, q)`. -/
theorem widx_10 (p : Fin 100000) (q k : Fin 64) :
    idx_main_v145 (idx_main_v146 (ridx_main_v147 (ix2 p q) k)) = ix4 (1 : Fin 2) (0 : Fin 3) k q := by
  have hk : k.val < 64 := k.isLt
  have hq : q.val < 64 := q.isLt
  funext a
  apply Fin.ext
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- The matrix of round 1, edge type 1, is read at row `k`, column `q`: the row-major position `k·64 + q` splits back into `(k, q)`. -/
theorem widx_11 (p : Fin 100000) (q k : Fin 64) :
    idx_main_v157 (idx_main_v158 (ridx_main_v159 (ix2 p q) k)) = ix4 (1 : Fin 2) (1 : Fin 3) k q := by
  have hk : k.val < 64 := k.isLt
  have hq : q.val < 64 := q.isLt
  funext a
  apply Fin.ext
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- The matrix of round 1, edge type 2, is read at row `k`, column `q`: the row-major position `k·64 + q` splits back into `(k, q)`. -/
theorem widx_12 (p : Fin 100000) (q k : Fin 64) :
    idx_main_v169 (idx_main_v170 (ridx_main_v171 (ix2 p q) k)) = ix4 (1 : Fin 2) (2 : Fin 3) k q := by
  have hk : k.val < 64 := k.isLt
  have hq : q.val < 64 := q.isLt
  funext a
  apply Fin.ext
  match a with
  | ⟨0, _⟩ => rfl
  | ⟨1, _⟩ => rfl
  | ⟨2, _⟩ => show (k.val * 64 + q.val) / 64 % 64 = k.val; omega
  | ⟨3, _⟩ => show (k.val * 64 + q.val) % 64 = q.val; omega

/-- The bias of round 0, edge type 0, broadcast down the rows, is read at `q`. -/
theorem bidx_00 (p : Fin 100000) (q : Fin 64) :
    idx_main_v61 (idx_main_v62 (idx_main_v63 (idx_main_v64 (ix2 p q)))) = ix3 (0 : Fin 2) (0 : Fin 3) q := by
  have hq : q.val < 64 := q.isLt
  funext a
  apply Fin.ext
  match a with
  | ⟨0, _⟩ => rfl
  | ⟨1, _⟩ => rfl
  | ⟨2, _⟩ => show q.val % 64 = q.val; omega

/-- The bias of round 0, edge type 1, broadcast down the rows, is read at `q`. -/
theorem bidx_01 (p : Fin 100000) (q : Fin 64) :
    idx_main_v73 (idx_main_v74 (idx_main_v75 (idx_main_v76 (ix2 p q)))) = ix3 (0 : Fin 2) (1 : Fin 3) q := by
  have hq : q.val < 64 := q.isLt
  funext a
  apply Fin.ext
  match a with
  | ⟨0, _⟩ => rfl
  | ⟨1, _⟩ => rfl
  | ⟨2, _⟩ => show q.val % 64 = q.val; omega

/-- The bias of round 0, edge type 2, broadcast down the rows, is read at `q`. -/
theorem bidx_02 (p : Fin 100000) (q : Fin 64) :
    idx_main_v86 (idx_main_v87 (idx_main_v88 (idx_main_v89 (ix2 p q)))) = ix3 (0 : Fin 2) (2 : Fin 3) q := by
  have hq : q.val < 64 := q.isLt
  funext a
  apply Fin.ext
  match a with
  | ⟨0, _⟩ => rfl
  | ⟨1, _⟩ => rfl
  | ⟨2, _⟩ => show q.val % 64 = q.val; omega

/-- The bias of round 1, edge type 0, broadcast down the rows, is read at `q`. -/
theorem bidx_10 (p : Fin 100000) (q : Fin 64) :
    idx_main_v152 (idx_main_v153 (idx_main_v154 (idx_main_v155 (ix2 p q)))) = ix3 (1 : Fin 2) (0 : Fin 3) q := by
  have hq : q.val < 64 := q.isLt
  funext a
  apply Fin.ext
  match a with
  | ⟨0, _⟩ => rfl
  | ⟨1, _⟩ => rfl
  | ⟨2, _⟩ => show q.val % 64 = q.val; omega

/-- The bias of round 1, edge type 1, broadcast down the rows, is read at `q`. -/
theorem bidx_11 (p : Fin 100000) (q : Fin 64) :
    idx_main_v164 (idx_main_v165 (idx_main_v166 (idx_main_v167 (ix2 p q)))) = ix3 (1 : Fin 2) (1 : Fin 3) q := by
  have hq : q.val < 64 := q.isLt
  funext a
  apply Fin.ext
  match a with
  | ⟨0, _⟩ => rfl
  | ⟨1, _⟩ => rfl
  | ⟨2, _⟩ => show q.val % 64 = q.val; omega

/-- The bias of round 1, edge type 2, broadcast down the rows, is read at `q`. -/
theorem bidx_12 (p : Fin 100000) (q : Fin 64) :
    idx_main_v177 (idx_main_v178 (idx_main_v179 (idx_main_v180 (ix2 p q)))) = ix3 (1 : Fin 2) (2 : Fin 3) q := by
  have hq : q.val < 64 := q.isLt
  funext a
  apply Fin.ext
  match a with
  | ⟨0, _⟩ => rfl
  | ⟨1, _⟩ => rfl
  | ⟨2, _⟩ => show q.val % 64 = q.val; omega

/-! ## The two rounds -/

section Rounds
variable (x0 x1 : Feat Ideal) (x2 x3 : Wts Ideal) (x4 : Bias Ideal) (x7 x8 x9 x10 x11 x12 : Edges Ideal)

/-- Round 0, second node type. -/
theorem layerB0 :
    val_main_v65 (F := Ideal) x0 x1 x2 x3 x4 x7 x8 = Cert.Spec.layerB (fun x => val_main_v17 (F := Ideal) x x7 x8) x0 x1 x2 x3 x4 0 := by
  funext i
  obtain ⟨p, q, rfl⟩ : ∃ (p : Fin 100000) (q : Fin 64), i = ix2 p q := ⟨i 0, i 1, eq_ix2 i⟩
  rw [val_main_v65_apply, val_main_v60_apply, val_main_v56_apply, val_main_v59_apply, val_main_v64_apply, val_main_v63_apply, val_main_v62_apply, val_main_v61_apply]
  simp only [val_main_v55_apply, val_main_v54_apply, val_main_v58_apply, val_main_v57_apply, Ideal.addf_def]
  exact newB_read (val_main_v17 (F := Ideal) x0 x7 x8) x1 x2 x3 x4 0 p q _ _ _ _ _
    (lidx_eq p q) (widx_00 p q) (lidx_eq p q) (widx_00 p q) (bidx_00 p q)

/-- Round 0, first node type. -/
theorem layerA0 :
    val_main_v90 (F := Ideal) x0 x1 x2 x3 x4 x9 x10 x11 x12 = Cert.Spec.layerA (fun x => val_main_v17 (F := Ideal) x x9 x10) (fun x => val_main_v17 (F := Ideal) x x11 x12) x0 x1 x2 x3 x4 0 := by
  funext i
  obtain ⟨p, q, rfl⟩ : ∃ (p : Fin 100000) (q : Fin 64), i = ix2 p q := ⟨i 0, i 1, eq_ix2 i⟩
  rw [val_main_v90_apply, val_main_v85_apply, val_main_v81_apply, val_main_v77_apply, val_main_v72_apply, val_main_v68_apply, val_main_v71_apply, val_main_v76_apply, val_main_v75_apply, val_main_v74_apply, val_main_v73_apply, val_main_v80_apply, val_main_v84_apply, val_main_v89_apply, val_main_v88_apply, val_main_v87_apply, val_main_v86_apply]
  simp only [val_main_v67_apply, val_main_v66_apply, val_main_v70_apply, val_main_v69_apply, val_main_v79_apply, val_main_v78_apply, val_main_v83_apply, val_main_v82_apply, Ideal.addf_def, agg1_eq, agg2_eq]
  exact newA_read (val_main_v17 (F := Ideal) x1 x9 x10) (val_main_v17 (F := Ideal) x0 x11 x12) x0 x2 x3 x4 0 p q _ _ _ _ _ _ _ _ _ _
    (lidx_eq p q) (widx_01 p q) (lidx_eq p q) (widx_01 p q) (bidx_01 p q)
    (lidx_eq p q) (widx_02 p q) (lidx_eq p q) (widx_02 p q) (bidx_02 p q)

/-- Round 1, second node type: round 0's formula over round 0's results. -/
theorem layerB1 :
    val_main_v156 (F := Ideal) x0 x1 x2 x3 x4 x7 x8 x9 x10 x11 x12 = Cert.Spec.layerB (fun x => val_main_v17 (F := Ideal) x x7 x8) (val_main_v90 (F := Ideal) x0 x1 x2 x3 x4 x9 x10 x11 x12) (val_main_v65 (F := Ideal) x0 x1 x2 x3 x4 x7 x8) x2 x3 x4 1 := by
  funext i
  obtain ⟨p, q, rfl⟩ : ∃ (p : Fin 100000) (q : Fin 64), i = ix2 p q := ⟨i 0, i 1, eq_ix2 i⟩
  rw [val_main_v156_apply, val_main_v151_apply, val_main_v147_apply, val_main_v150_apply, val_main_v155_apply, val_main_v154_apply, val_main_v153_apply, val_main_v152_apply]
  simp only [val_main_v146_apply, val_main_v145_apply, val_main_v149_apply, val_main_v148_apply, Ideal.addf_def, agg0'_eq]
  exact newB_read (val_main_v17 (F := Ideal) (val_main_v90 (F := Ideal) x0 x1 x2 x3 x4 x9 x10 x11 x12) x7 x8) (val_main_v65 (F := Ideal) x0 x1 x2 x3 x4 x7 x8) x2 x3 x4 1 p q _ _ _ _ _
    (lidx_eq p q) (widx_10 p q) (lidx_eq p q) (widx_10 p q) (bidx_10 p q)

/-- Round 1, first node type: round 0's formula over round 0's results. -/
theorem layerA1 :
    val_main_v181 (F := Ideal) x0 x1 x2 x3 x4 x7 x8 x9 x10 x11 x12 = Cert.Spec.layerA (fun x => val_main_v17 (F := Ideal) x x9 x10) (fun x => val_main_v17 (F := Ideal) x x11 x12) (val_main_v90 (F := Ideal) x0 x1 x2 x3 x4 x9 x10 x11 x12) (val_main_v65 (F := Ideal) x0 x1 x2 x3 x4 x7 x8) x2 x3 x4 1 := by
  funext i
  obtain ⟨p, q, rfl⟩ : ∃ (p : Fin 100000) (q : Fin 64), i = ix2 p q := ⟨i 0, i 1, eq_ix2 i⟩
  rw [val_main_v181_apply, val_main_v176_apply, val_main_v172_apply, val_main_v168_apply, val_main_v163_apply, val_main_v159_apply, val_main_v162_apply, val_main_v167_apply, val_main_v166_apply, val_main_v165_apply, val_main_v164_apply, val_main_v171_apply, val_main_v175_apply, val_main_v180_apply, val_main_v179_apply, val_main_v178_apply, val_main_v177_apply]
  simp only [val_main_v158_apply, val_main_v157_apply, val_main_v161_apply, val_main_v160_apply, val_main_v170_apply, val_main_v169_apply, val_main_v174_apply, val_main_v173_apply, Ideal.addf_def, agg1'_eq, agg2'_eq]
  exact newA_read (val_main_v17 (F := Ideal) (val_main_v65 (F := Ideal) x0 x1 x2 x3 x4 x7 x8) x9 x10) (val_main_v17 (F := Ideal) (val_main_v90 (F := Ideal) x0 x1 x2 x3 x4 x9 x10 x11 x12) x11 x12) (val_main_v90 (F := Ideal) x0 x1 x2 x3 x4 x9 x10 x11 x12) x2 x3 x4 1 p q _ _ _ _ _ _ _ _ _ _
    (lidx_eq p q) (widx_11 p q) (lidx_eq p q) (widx_11 p q) (bidx_11 p q)
    (lidx_eq p q) (widx_12 p q) (lidx_eq p q) (widx_12 p q) (bidx_12 p q)

end Rounds

/-! ## The head and the stack -/

section Head
variable (x0 x1 : Feat Ideal) (x2 x3 : Wts Ideal) (x4 : Bias Ideal)
  (x5 : (⟨S64x64, .f32⟩ : BufTy).Contents (Elt Ideal)) (x6 : (⟨S64, .f32⟩ : BufTy).Contents (Elt Ideal))
  (x7 x8 x9 x10 x11 x12 : Edges Ideal)

/-- The head on the first node type's final feature. -/
theorem outA_eq (p : Fin 100000) (q : Fin 64) :
    val_main_v186 (F := Ideal) x0 x1 x2 x3 x4 x5 x6 x7 x8 x9 x10 x11 x12 (ix2 p q) = Cert.Spec.headAt (val_main_v181 (F := Ideal) x0 x1 x2 x3 x4 x7 x8 x9 x10 x11 x12) x5 x6 p q := by
  rw [val_main_v186_apply, val_main_v185_apply, val_main_v182_apply, val_main_v184_apply, val_main_v183_apply, val_main_call0_v0_apply, val_main_call0_cst_apply]
  simp only [Ideal.maximumf_def, Ideal.addf_def, Ideal.ofBits_def, Ideal.ofBits_zero_f32]
  exact head_read (val_main_v181 (F := Ideal) x0 x1 x2 x3 x4 x7 x8 x9 x10 x11 x12) x5 x6 p q _ _ _ (lidx_eq p q) (hwidx p q) (hbidx p q)

/-- The head on the second node type's final feature. -/
theorem outB_eq (p : Fin 100000) (q : Fin 64) :
    val_main_v191 (F := Ideal) x0 x1 x2 x3 x4 x5 x6 x7 x8 x9 x10 x11 x12 (ix2 p q) = Cert.Spec.headAt (val_main_v156 (F := Ideal) x0 x1 x2 x3 x4 x7 x8 x9 x10 x11 x12) x5 x6 p q := by
  rw [val_main_v191_apply, val_main_v190_apply, val_main_v187_apply, val_main_v189_apply, val_main_v188_apply, val_main_call1_v0_apply, val_main_call1_cst_apply]
  simp only [Ideal.maximumf_def, Ideal.addf_def, Ideal.ofBits_def, Ideal.ofBits_zero_f32]
  exact head_read (val_main_v156 (F := Ideal) x0 x1 x2 x3 x4 x7 x8 x9 x10 x11 x12) x5 x6 p q _ _ _ (lidx_eq p q) (hwidx p q) (hbidx p q)

/-- The reference's result is the specification's, with the reference's own aggregation as the three operators. -/
theorem result_eq :
    val_main_v192 (F := Ideal) x0 x1 x2 x3 x4 x5 x6 x7 x8 x9 x10 x11 x12
      = Cert.Spec.result (fun x => val_main_v17 (F := Ideal) x x7 x8) (fun x => val_main_v17 (F := Ideal) x x9 x10) (fun x => val_main_v17 (F := Ideal) x x11 x12) x0 x1 x2 x3 x4 x5 x6 := by
  funext i
  obtain ⟨p, q, rfl⟩ : ∃ (p : Fin 200000) (q : Fin 64), i = ix2 p q := ⟨i 0, i 1, eq_ix2 i⟩
  unfold Cert.Spec.result
  rw [← layerA0 x0 x1 x2 x3 x4 x9 x10 x11 x12, ← layerB0 x0 x1 x2 x3 x4 x7 x8,
    ← layerA1 x0 x1 x2 x3 x4 x7 x8 x9 x10 x11 x12, ← layerB1 x0 x1 x2 x3 x4 x7 x8 x9 x10 x11 x12]
  unfold val_main_v192
  by_cases h : p.val < 100000
  · rw [head_cat_left _ _ x5 x6 p q h, ← outA_eq x0 x1 x2 x3 x4 x5 x6 x7 x8 x9 x10 x11 x12 ⟨p.val, h⟩ q]
    exact concatenate_pair_apply_left (t := S200000x64) (s₁ := S100000x64) (s₂ := S100000x64) (0 : Fin S200000x64.rank) _ _ _
      (ix2 p q) (rfl : S100000x64.rank = S200000x64.rank) (ix2 ⟨p.val, h⟩ q)
      (fun b => by match b with | ⟨0, _⟩ => rfl | ⟨1, _⟩ => rfl)
  · have hp : p.val - 100000 < 100000 := by have := p.isLt; omega
    rw [head_cat_right _ _ x5 x6 p q h hp, ← outB_eq x0 x1 x2 x3 x4 x5 x6 x7 x8 x9 x10 x11 x12 ⟨p.val - 100000, hp⟩ q]
    exact concatenate_pair_apply_right (t := S200000x64) (s₁ := S100000x64) (s₂ := S100000x64) (0 : Fin S200000x64.rank) _ _ _
      (ix2 p q) (rfl : S100000x64.rank = S200000x64.rank) (rfl : S100000x64.rank = S200000x64.rank) (ix2 ⟨p.val - 100000, hp⟩ q)
      (fun b hb => by
        have hb' : b.val ≠ 0 := fun e => hb (Fin.ext e)
        have hlt : b.val < 2 := b.isLt
        have h1 : b = ⟨1, by decide⟩ := Fin.ext (by show b.val = 1; omega)
        subst h1
        rfl)
      (show p.val - 100000 + 100000 = p.val by omega)

end Head

end Cert.ReferenceIdeal.RefValue

end
-- ==== Proof.lean ====
/-
  The certificate: the idealized kernel program and the idealized reference compute the same matrix.

  Both programs run two rounds of message passing on a graph with two node types and then a linear head with a
  rectifier.  The kernel program does each round's linear combination, and the head, in kernel regions over row
  blocks (matrix products into a zero accumulator, formats changed on the way: at the ideal instance plain sums
  over the contracted index, the format changes the identity); the reference does them as whole-array products.
  The mean-aggregations between them are the same chain of host operations in both programs and are carried
  as one operator.  Index by index both results are the specification `Cert.Spec.result` of the argument arrays:
  the kernel program's by walking its run's segment boundaries back from the result buffer, the reference's by
  reading its composed term one operation at a time.  No algebraic law beyond the programs' own grouping of the
  sums is used, so the precondition (finite inputs) is never opened.
  The three frames are the generated ones; the ideal pass rewrote nothing, so `preserves` is `True`.
-/
import proofs.«119357_j61100204753259_1_alg».proof.Defs
import proofs.«119357_j61100204753259_1_alg».proof.Proof.Gen.Kernel
import proofs.«119357_j61100204753259_1_alg».proof.Proof.Gen.Kernel.Frame
import proofs.«119357_j61100204753259_1_alg».proof.Proof.Gen.KernelIdeal
import proofs.«119357_j61100204753259_1_alg».proof.Proof.Gen.KernelIdeal.Frame
import proofs.«119357_j61100204753259_1_alg».proof.Proof.Gen.ReferenceIdeal
import proofs.«119357_j61100204753259_1_alg».proof.Proof.Gen.Pre_finite_inputs
import proofs.«119357_j61100204753259_1_alg».proof.Proof.Gen.ReferenceIdeal.Run
import proofs.«119357_j61100204753259_1_alg».proof.Proof.Gen.ReferenceIdeal.Read
import proofs.«119357_j61100204753259_1_alg».proof.Proof.KernelRun
import proofs.«119357_j61100204753259_1_alg».proof.Proof.KernelValue
import proofs.«119357_j61100204753259_1_alg».proof.Proof.BlockValues
import proofs.«119357_j61100204753259_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification of the kernel program's
    arguments in their result arrays. -/
theorem algebraic : Cert.algebraic_KernelIdeal_ReferenceIdeal := by
  intro m ρ m' ρ' _ hagree
  refine ⟨fun c => Cert.Spec.result (Cert.KernelIdeal.Value.g0 m c) (Cert.KernelIdeal.Value.g1 m c) (Cert.KernelIdeal.Value.g2 m c)
      (Cert.KernelIdeal.Value.xA m c) (Cert.KernelIdeal.Value.xB m c) (Cert.KernelIdeal.Value.wn m c) (Cert.KernelIdeal.Value.wr m c)
      (Cert.KernelIdeal.Value.bs m c) (Cert.KernelIdeal.Value.wo m c) (Cert.KernelIdeal.Value.bo m c), ?_, ?_⟩
  · exact (θ_run Cert.KernelIdeal.defs _ _).mono
      (fun r h c => ⟨(h c).1.trans (Cert.KernelIdeal.Value.result m ρ
          Cert.KernelIdeal.BlockValue.out0_8_apply Cert.KernelIdeal.BlockValue.out0_9_apply
          Cert.KernelIdeal.BlockValue.out1_8_apply Cert.KernelIdeal.BlockValue.out1_9_apply
          Cert.KernelIdeal.BlockValue.out2_3_apply c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v192_eq, Cert.ReferenceIdeal.RefValue.result_eq, h0, h1, h2, h3, h4, h5, h6, h7, h8, h9, h10, h11, h12]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
